-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x64 : Shape := ⟨2, ![50000, 64]⟩
abbrev S10000x128 : Shape := ⟨2, ![10000, 128]⟩
abbrev S10000x1 : Shape := ⟨2, ![10000, 1]⟩
abbrev S10000x64 : Shape := ⟨2, ![10000, 64]⟩
abbrev S850000x64 : Shape := ⟨2, ![850000, 64]⟩
abbrev S1x64 : Shape := ⟨2, ![1, 64]⟩

abbrev nBuf : Space → Nat
  | .hbm => 54
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x64, .bf16⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000x64, .bf16⟩
  | .hbm, ⟨31, _⟩ => ⟨S850000x64, .f32⟩
  | .hbm, ⟨32, _⟩ => ⟨S_, .f32⟩
  | .hbm, ⟨33, _⟩ => ⟨S50000x64, .f32⟩
  | .hbm, ⟨34, _⟩ => ⟨S850000x1, .i32⟩
  | .hbm, ⟨35, _⟩ => ⟨S50000x64, .f32⟩
  | .hbm, ⟨36, _⟩ => ⟨S1x64, .f32⟩
  | .hbm, ⟨37, _⟩ => ⟨S50000x64, .bf16⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000x64, .bf16⟩
  | .hbm, ⟨47, _⟩ => ⟨S850000x64, .f32⟩
  | .hbm, ⟨48, _⟩ => ⟨S_, .f32⟩
  | .hbm, ⟨49, _⟩ => ⟨S50000x64, .f32⟩
  | .hbm, ⟨50, _⟩ => ⟨S850000x1, .i32⟩
  | .hbm, ⟨51, _⟩ => ⟨S50000x64, .f32⟩
  | .hbm, ⟨52, _⟩ => ⟨S1x64, .f32⟩
  | .hbm, ⟨53, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x64, .f32⟩
  | .local _ .vmem, ⟨5, _⟩ => ⟨S10000x64, .bf16⟩
  | .local _ .vmem, ⟨6, _⟩ => ⟨S10000x64, .bf16⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S64x64, .f32⟩
  | .local _ .vmem, ⟨13, _⟩ => ⟨S10000x64, .bf16⟩
  | .local _ .vmem, ⟨14, _⟩ => ⟨S10000x64, .bf16⟩
  | .local _ .vmem, ⟨15, _⟩ => ⟨S10000x64, .f32⟩
  | .local _ .vmem, ⟨16, _⟩ => ⟨S10000x64, .f32⟩
  | .local _ .vmem, ⟨17, _⟩ => ⟨S10000x1, .f32⟩
  | .local _ .vmem, ⟨18, _⟩ => ⟨S10000x1, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  scatter_S50000_S850000x1_S850000_n_0_0_1_wf : ScatterDims.WF S50000 S850000x1 S850000 [] [0] [0] 1
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .f32 = 32 ∨ (Rect.block (s := S50000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .bf16 = 32 ∨ (Rect.block (s := S50000x64) S10000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .bf16 = 32 ∨ (Rect.block (s := S50000x64) S10000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S50000x1.size a
  hwx2_1 : ∀ i : grid2.Coords, EltTy.bits .f32 = 32 ∨ (Rect.block (s := S50000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S50000x64.size a
  hwx2_3 : ∀ i : grid2.Coords, EltTy.bits .f32 = 32 ∨ (Rect.block (s := S50000x64) S10000x64.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S50000x64, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x64, .f32⟩
  | .hbm, ⟨49, _⟩ => ⟨S850000x1, .f32⟩
  | .hbm, ⟨50, _⟩ => ⟨S850000x64, .f32⟩
  | .hbm, ⟨51, _⟩ => ⟨S850000x64, .f32⟩
  | .hbm, ⟨52, _⟩ => ⟨S_, .f32⟩
  | .hbm, ⟨53, _⟩ => ⟨S50000x64, .f32⟩
  | .hbm, ⟨54, _⟩ => ⟨S850000x1, .i32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x64, .f32⟩
  | .hbm, ⟨72, _⟩ => ⟨S850000x1, .f32⟩
  | .hbm, ⟨73, _⟩ => ⟨S850000x64, .f32⟩
  | .hbm, ⟨74, _⟩ => ⟨S850000x64, .f32⟩
  | .hbm, ⟨75, _⟩ => ⟨S_, .f32⟩
  | .hbm, ⟨76, _⟩ => ⟨S50000x64, .f32⟩
  | .hbm, ⟨77, _⟩ => ⟨S850000x1, .i32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRun.lean ====
/-
  The kernel program's run with its result named.

  @main is three launches among three stretches of host operations. The buffer contents at the six boundaries are a
  fold from the launch memory: a stretch applies its operations, a launch replaces its arrays by what its write-backs
  leave. Every weakly fair execution terminates with the unscoped buffers at the last boundary's contents; read at the
  result buffer this names the result, and read at an argument it gives the launch contents back.
-/
import proofs.«140970_j68298569941218_2_alg».proof.Proof.Gen.KernelIdeal.Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_out : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Layers

end
-- ==== Proof.KBase.lean ====
/-
  Index maps shared by the three launches of the kernel program. Every launch works on [50000, 64] node features
  in five blocks of 10000 rows; beside a block it stages the matching 10000 rows of the column of per-node scales
  and, whole, a bias row or a weight matrix. `nodeOf` / `featOf` name the scale and the bias entry that belong to
  a (node, feature) index of the whole array, `nodeB` / `featB` the same inside one block, and the two broadcast
  lemmas read the column and the row forms of the body's broadcasts at an index.
-/
import proofs.«140970_j68298569941218_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat)
open Idealize.ShloMosaic.ValueIdx

theorem hz : (![0, 0] : Fin 2 → Nat) = fun _ => 0 := funext fun a => by fin_cases a <;> rfl

/-- The node of a (node, feature) index, as an index into the column of per-node scales. -/
abbrev nodeOf (i : S50000x64.Idx) : S50000x1.Idx := fun a => match a with
  | ⟨0, _⟩ => ⟨(i 0).val, (i 0).isLt⟩
  | ⟨1, _⟩ => ⟨0, Nat.one_pos⟩
/-- The feature of a (node, feature) index, as an index into a bias row. -/
abbrev featOf (i : S50000x64.Idx) : S1x64.Idx := fun a => match a with
  | ⟨0, _⟩ => ⟨0, Nat.one_pos⟩
  | ⟨1, _⟩ => ⟨(i 1).val, (i 1).isLt⟩

/-- The same two index maps inside one block of 10000 rows. -/
abbrev nodeB (j : S10000x64.Idx) : S10000x1.Idx := fun a => match a with
  | ⟨0, _⟩ => ⟨(j 0).val, (j 0).isLt⟩
  | ⟨1, _⟩ => ⟨0, Nat.one_pos⟩
abbrev featB (j : S10000x64.Idx) : S1x64.Idx := fun a => match a with
  | ⟨0, _⟩ => ⟨0, Nat.one_pos⟩
  | ⟨1, _⟩ => ⟨(j 1).val, (j 1).isLt⟩

/-- A column of 10000 scales broadcast along the 64 features reads the row's scale. -/
theorem colBcast_apply (x : S10000x1.Idx → EReal) (j : S10000x64.Idx) :
    broadcastTo S10000x64 x broadcasts_S10000x1_S10000x64 j = x (nodeB j) :=
  broadcastTo_apply x broadcasts_S10000x1_S10000x64 j (nodeB j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])

/-- A row of 64 entries broadcast down 10000 rows reads the column's entry. -/
theorem rowBcast_apply (x : S1x64.Idx → EReal) (j : S10000x64.Idx) :
    broadcastTo S10000x64 x broadcasts_S1x64_S10000x64 j = x (featB j) :=
  broadcastTo_apply x broadcasts_S1x64_S10000x64 j (featB j) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])

end Cert.KernelIdeal.Layers

end
-- ==== Proof.KProject.lean ====
/-
  The first launch of the kernel program: pre1 = (x · W1) scaled row by row by dis, over [50000, 64] in five blocks
  of 10000 rows.

  Each grid point t stages rows [10000·t, 10000·(t+1)) of x and of the column of per-node scales and, whole, the
  128 × 64 weight matrix; the body multiplies the block by the matrix (the narrowing to bf16 is the identity on
  extended reals, and the product into the zero accumulator is the plain sum over the 128 contracted positions),
  scales each row by its node's factor, and writes the block back to the same rows. The five blocks tile the array,
  so after the launch the result array is the one function `projectScale` of the arrays as the launch finds them.
-/
import proofs.«140970_j68298569941218_2_alg».proof.Proof.KBase
import Idealize.ShloMosaic.PureOps.Ideal.Laws

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat)
open Idealize.ShloMosaic.ValueIdx

/-- Inside a block: the operands' entries met by position k of the contraction for result entry j. -/
abbrev lB0 (j : S10000x64.Idx) (k : Fin 128) : S10000x128.Idx := fun a => match a with
  | ⟨0, _⟩ => ⟨(j 0).val, (j 0).isLt⟩
  | ⟨1, _⟩ => ⟨k.val, k.isLt⟩
abbrev rB0 (j : S10000x64.Idx) (k : Fin 128) : S128x64.Idx := fun a => match a with
  | ⟨0, _⟩ => ⟨k.val, k.isLt⟩
  | ⟨1, _⟩ => ⟨(j 1).val, (j 1).isLt⟩
/-- In the whole arrays. -/
abbrev lA0 (i : S50000x64.Idx) (k : Fin 128) : S50000x128.Idx := fun a => match a with
  | ⟨0, _⟩ => ⟨(i 0).val, (i 0).isLt⟩
  | ⟨1, _⟩ => ⟨k.val, k.isLt⟩
abbrev rA0 (i : S50000x64.Idx) (k : Fin 128) : S128x64.Idx := fun a => match a with
  | ⟨0, _⟩ => ⟨k.val, k.isLt⟩
  | ⟨1, _⟩ => ⟨(i 1).val, (i 1).isLt⟩

/-- x · W, every row then scaled by its node's factor. -/
def projectScale (x : S50000x128.Idx → EReal) (d : S50000x1.Idx → EReal) (W : S128x64.Idx → EReal) : S50000x64.Idx → EReal :=
  fun i => (∑ k : Fin 128, x (lA0 i k) * W (rA0 i k)) * d (nodeOf i)

theorem lhsP_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhsP_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhsP_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhsP_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The block's product into the zero accumulator, entry by entry: the sum over the 128 contracted positions. -/
theorem mmP_apply {φ₁ φ₂ : FTy} (l : FVec Ideal S10000x128 φ₁) (r : FVec Ideal S128x64 φ₂) (j : S10000x64.Idx) :
    matmul dot_S10000x128_S128x64_S10000x64_1_0_0_1_n_n none l r (constant S10000x64 .f32 0x00000000#32) j
      = ∑ k : Fin 128, (l (lB0 j k) : EReal) * r (rB0 j k) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = lB0 j k := funext fun a => Fin.ext (by
    match a with
    | ⟨0, _⟩ => exact lhsP_0 _ _
    | ⟨1, _⟩ => exact (lhsP_1 _ _).trans hk)
  have er : dot_S10000x128_S128x64_S10000x64_1_0_0_1_n_n.rhsIdx j ((ValueIdx.contrEquiv1 dot_S10000x128_S128x64_S10000x64_1_0_0_1_n_n 128 rfl rfl).symm k) = rB0 j k := funext fun a => Fin.ext (by
    match a with
    | ⟨0, _⟩ => exact (rhsP_0 _ _).trans hk
    | ⟨1, _⟩ => exact rhsP_1 _ _)
  rw [el, er]

/-- The first body on one block, entry by entry. -/
theorem project_apply (v0 : Vec Ideal S10000x128 .f32) (v2 : Vec Ideal S128x64 .f32) (v5 : Vec Ideal S10000x1 .f32) (j : S10000x64.Idx) :
    k0_pay1 v0 v2 v5 j = (∑ k : Fin 128, (v0 (lB0 j k) : EReal) * v2 (rB0 j k)) * v5 (nodeB j) := by
  unfold k0_pay1
  simp only [shapeCast_self]
  rw [truncf_apply, mulf_apply, colBcast_apply, mmP_apply]
  rfl

section
variable (V : (c : Dev nD) → (b : Ref sig .tc) → Buf (Elt Ideal) ((c : Thread nD τ).loc b))

/-- The printed index maps over the five grid points: rows move with the point, columns stay. -/
theorem idx_facts0 : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) = t.val ∧ t.val < 5 :=
  (by decide +kernel : ∀ t : Fin grid0.N, _)

/-- What point t writes back is block t of `projectScale` of the arrays as the launch finds them. -/
theorem flushed0_eq (c : Dev nD) (t : Fin cfg0.N) :
    (dat0 V c).flushed 3 t = ((cfg0.win 3).blk t).view.read (Elt Ideal)
      (projectScale (V c main_arg0) (V c main_v12) (V c main_arg2)) := by
  show (cfg0.win 3).cut (grid0.coords t) ((dat0 V c).after 3 t) = _
  rw [after0_3]
  unfold out0_3
  rw [View.canon_unit_zero hz]
  simp only [View.ld_unit_zero (S := S10000x128) hz, View.ld_unit_zero (S := S10000x1) hz, View.ld_unit_zero (S := S128x64) hz]
  obtain ⟨e0, e1, e2, e3, e4, e5, e6, e7, e8⟩ := idx_facts0 t
  funext j
  show k0_pay1 (iblk0 V c 0 t) (iblk0 V c 2 t) (iblk0 V c 1 t) j
    = projectScale (V c main_arg0) (V c main_v12) (V c main_arg2) (((cfg0.win 3).blk t).view.emb j)
  rw [project_apply]
  have hx : ∀ k : Fin 128, iblk0 V c 0 t (lB0 j k) = (V c main_arg0 : S50000x128.Idx → EReal) (lA0 (((cfg0.win 3).blk t).view.emb j) k) := fun k =>
    congrArg (V c main_arg0 : S50000x128.Idx → EReal) (by
      funext a; apply Fin.ext
      match a with
      | ⟨0, _⟩ => show win0_0.index t (0 : Fin 2) * 10000 + 1 * (j 0).val = win0_3.index t (0 : Fin 2) * 10000 + 1 * (j 0).val; omega
      | ⟨1, _⟩ => show win0_0.index t (1 : Fin 2) * 128 + 1 * k.val = k.val; omega)
  have hw : ∀ k : Fin 128, iblk0 V c 2 t (rB0 j k) = (V c main_arg2 : S128x64.Idx → EReal) (rA0 (((cfg0.win 3).blk t).view.emb j) k) := fun k =>
    congrArg (V c main_arg2 : S128x64.Idx → EReal) (by
      funext a; apply Fin.ext
      match a with
      | ⟨0, _⟩ => show win0_2.index t (0 : Fin 2) * 128 + 1 * k.val = k.val; omega
      | ⟨1, _⟩ => show win0_2.index t (1 : Fin 2) * 64 + 1 * (j 1).val = win0_3.index t (1 : Fin 2) * 64 + 1 * (j 1).val; omega)
  have hd : iblk0 V c 1 t (nodeB j) = (V c main_v12 : S50000x1.Idx → EReal) (nodeOf (((cfg0.win 3).blk t).view.emb j)) :=
    congrArg (V c main_v12 : S50000x1.Idx → EReal) (by
      funext a; apply Fin.ext
      match a with
      | ⟨0, _⟩ => show win0_1.index t (0 : Fin 2) * 10000 + 1 * (j 0).val = win0_3.index t (0 : Fin 2) * 10000 + 1 * (j 0).val; omega
      | ⟨1, _⟩ => show win0_1.index t (1 : Fin 2) * 1 + 1 * 0 = 0; omega)
  rw [hd]
  simp only [hx, hw]
  rfl

/-- An index of the result array is in point t's block iff each coordinate is in the block's range. -/
theorem mem_blk0 (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v13).slice (win0_3.rect t)).set ↔ _
  rw [View.set_slice_whole, Rect.mem_set_unit]
  exact Iff.rfl

/-- The five blocks tile the result array: row r is in the block of point r / 10000. -/
theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  refine ⟨⟨(i 0).val / 10000, by rw [show cfg0.N = 5 from N_0]; omega⟩, flush0_3 _, ?_⟩
  rw [mem_blk0]
  obtain ⟨e0, e1, e2, e3, e4, e5, e6, e7, e8⟩ := idx_facts0 ⟨(i 0).val / 10000, by rw [show cfg0.N = 5 from N_0]; omega⟩
  intro a
  match a with
  | ⟨0, _⟩ => show win0_3.index _ (0 : Fin 2) * 10000 ≤ (i 0).val ∧ (i 0).val < win0_3.index _ (0 : Fin 2) * 10000 + 10000; rw [e7]; show (i 0).val / 10000 * 10000 ≤ (i 0).val ∧ (i 0).val < (i 0).val / 10000 * 10000 + 10000; omega
  | ⟨1, _⟩ => show win0_3.index _ (1 : Fin 2) * 64 ≤ (i 1).val ∧ (i 1).val < win0_3.index _ (1 : Fin 2) * 64 + 64; rw [e2]; omega

/-- After the first launch the result array is `projectScale` of the arrays the launch found. -/
theorem final0 (c : Dev nD) :
    (dat0 V c).arrAt 3 cfg0.N = projectScale (V c main_arg0) (V c main_v12) (V c main_arg2) :=
  (dat0 V c).arrAt_eq_of_cover 3 _ (fun t _ => flushed0_eq V c t) cover0

end

end Cert.KernelIdeal.Layers

end
-- ==== Proof.KFused.lean ====
/-
  The second launch of the kernel program: pre2 = (relu (agg · dis + b1) · W2) scaled row by row by dis, over
  [50000, 64] in five blocks of 10000 rows.

  Each grid point t stages rows [10000·t, 10000·(t+1)) of the aggregated features and of the column of per-node
  scales and, whole, the bias row and the 64 × 64 weight matrix; the body scales each row by its node's factor,
  adds the bias row, takes the maximum with the zero word, multiplies by the matrix (narrowing to bf16 is the
  identity on extended reals; the product into the zero accumulator is the plain sum over the 64 contracted
  positions), scales each row again and writes the block back to the same rows. The five blocks tile the array, so
  after the launch the result array is the one function `fusedLayer` of the arrays as the launch finds them.
-/
import proofs.«140970_j68298569941218_2_alg».proof.Proof.KBase
import Idealize.ShloMosaic.PureOps.Ideal.Laws

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat)
open Idealize.ShloMosaic.ValueIdx

/-- Inside a block: the operands' entries met by position k of the contraction for result entry j. -/
abbrev lB1 (j : S10000x64.Idx) (k : Fin 64) : S10000x64.Idx := fun a => match a with
  | ⟨0, _⟩ => ⟨(j 0).val, (j 0).isLt⟩
  | ⟨1, _⟩ => ⟨k.val, k.isLt⟩
abbrev rB1 (j : S10000x64.Idx) (k : Fin 64) : S64x64.Idx := fun a => match a with
  | ⟨0, _⟩ => ⟨k.val, k.isLt⟩
  | ⟨1, _⟩ => ⟨(j 1).val, (j 1).isLt⟩
/-- In the whole arrays. -/
abbrev lA1 (i : S50000x64.Idx) (k : Fin 64) : S50000x64.Idx := fun a => match a with
  | ⟨0, _⟩ => ⟨(i 0).val, (i 0).isLt⟩
  | ⟨1, _⟩ => ⟨k.val, k.isLt⟩
abbrev rA1 (i : S50000x64.Idx) (k : Fin 64) : S64x64.Idx := fun a => match a with
  | ⟨0, _⟩ => ⟨k.val, k.isLt⟩
  | ⟨1, _⟩ => ⟨(i 1).val, (i 1).isLt⟩
/-- Entry k of a bias row. -/
abbrev biasAt (k : Fin 64) : S1x64.Idx := fun a => match a with
  | ⟨0, _⟩ => ⟨0, Nat.one_pos⟩
  | ⟨1, _⟩ => ⟨k.val, k.isLt⟩

/-- relu (A scaled row by row + bias) · W, every row then scaled again by its node's factor. -/
def fusedLayer (A : S50000x64.Idx → EReal) (d : S50000x1.Idx → EReal) (b : S1x64.Idx → EReal) (W : S64x64.Idx → EReal) :
    S50000x64.Idx → EReal :=
  fun i => (∑ k : Fin 64, max (A (lA1 i k) * d (nodeOf i) + b (biasAt k)) (Ideal.ofBits .f32 0x00000000#32) * W (rA1 i k)) * d (nodeOf i)

theorem lhsF_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhsF_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhsF_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhsF_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block's product into the zero accumulator, entry by entry: the sum over the 64 contracted positions. -/
theorem mmF_apply {φ₁ φ₂ : FTy} (l : FVec Ideal S10000x64 φ₁) (r : FVec Ideal S64x64 φ₂) (j : S10000x64.Idx) :
    matmul dot_S10000x64_S64x64_S10000x64_1_0_0_1_n_n none l r (constant S10000x64 .f32 0x00000000#32) j
      = ∑ k : Fin 64, (l (lB1 j k) : EReal) * r (rB1 j k) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = lB1 j k := funext fun a => Fin.ext (by
    match a with
    | ⟨0, _⟩ => exact lhsF_0 _ _
    | ⟨1, _⟩ => exact (lhsF_1 _ _).trans hk)
  have er : dot_S10000x64_S64x64_S10000x64_1_0_0_1_n_n.rhsIdx j ((ValueIdx.contrEquiv1 dot_S10000x64_S64x64_S10000x64_1_0_0_1_n_n 64 rfl rfl).symm k) = rB1 j k := funext fun a => Fin.ext (by
    match a with
    | ⟨0, _⟩ => exact (rhsF_0 _ _).trans hk
    | ⟨1, _⟩ => exact rhsF_1 _ _)
  rw [el, er]

/-- The second body on one block, entry by entry. -/
theorem fused_apply (v0 : Vec Ideal S10000x64 .f32) (v2 : Vec Ideal S10000x1 .f32) (v6 : Vec Ideal S1x64 .f32) (v13 : Vec Ideal S64x64 .f32) (j : S10000x64.Idx) :
    k1_pay1 v0 v2 v6 v13 j
      = (∑ k : Fin 64, max ((v0 (lB1 j k) : EReal) * v2 (nodeB j) + v6 (biasAt k)) (Ideal.ofBits .f32 0x00000000#32) * v13 (rB1 j k)) * v2 (nodeB j) := by
  unfold k1_pay1
  simp only [shapeCast_self]
  rw [truncf_apply, mulf_apply, colBcast_apply, mmF_apply]
  refine congrArg (· * (v2 (nodeB j) : EReal)) (Finset.sum_congr rfl fun k _ => ?_)
  rw [truncf_apply, truncf_apply, maximumf_apply, addf_apply, mulf_apply, colBcast_apply, rowBcast_apply]
  rfl

section
variable (V : (c : Dev nD) → (b : Ref sig .tc) → Buf (Elt Ideal) ((c : Thread nD τ).loc b))

/-- The printed index maps over the five grid points: rows move with the point, columns stay. -/
theorem idx_facts1 : ∀ t : Fin cfg1.N, win1_0.index t (0 : Fin 2) = win1_4.index t (0 : Fin 2)
    ∧ win1_0.index t (1 : Fin 2) = 0 ∧ win1_4.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ t.val < 5 :=
  (by decide +kernel : ∀ t : Fin grid1.N, _)

/-- What point t writes back is block t of `fusedLayer` of the arrays as the launch finds them. -/
theorem flushed1_eq (c : Dev nD) (t : Fin cfg1.N) :
    (dat1 V c).flushed 4 t = ((cfg1.win 4).blk t).view.read (Elt Ideal)
      (fusedLayer (V c main_v24) (V c main_v12) (V c main_v25) (V c main_arg4)) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S1x64) hz, View.ld_unit_zero (S := S64x64) hz]
  obtain ⟨e0, e1, e2, e3, e4, e5, e6, e7, e8, e9, e10⟩ := idx_facts1 t
  funext j
  show k1_pay1 (iblk1 V c 0 t) (iblk1 V c 1 t) (iblk1 V c 2 t) (iblk1 V c 3 t) j
    = fusedLayer (V c main_v24) (V c main_v12) (V c main_v25) (V c main_arg4) (((cfg1.win 4).blk t).view.emb j)
  rw [fused_apply]
  have hx : ∀ k : Fin 64, iblk1 V c 0 t (lB1 j k) = (V c main_v24 : S50000x64.Idx → EReal) (lA1 (((cfg1.win 4).blk t).view.emb j) k) := fun k =>
    congrArg (V c main_v24 : S50000x64.Idx → EReal) (by
      funext a; apply Fin.ext
      match a with
      | ⟨0, _⟩ => show win1_0.index t (0 : Fin 2) * 10000 + 1 * (j 0).val = win1_4.index t (0 : Fin 2) * 10000 + 1 * (j 0).val; omega
      | ⟨1, _⟩ => show win1_0.index t (1 : Fin 2) * 64 + 1 * k.val = k.val; omega)
  have hb : ∀ k : Fin 64, iblk1 V c 2 t (biasAt k) = (V c main_v25 : S1x64.Idx → EReal) (biasAt k) := fun k =>
    congrArg (V c main_v25 : S1x64.Idx → EReal) (by
      funext a; apply Fin.ext
      match a with
      | ⟨0, _⟩ => show win1_2.index t (0 : Fin 2) * 1 + 1 * 0 = 0; omega
      | ⟨1, _⟩ => show win1_2.index t (1 : Fin 2) * 64 + 1 * k.val = k.val; omega)
  have hw : ∀ k : Fin 64, iblk1 V c 3 t (rB1 j k) = (V c main_arg4 : S64x64.Idx → EReal) (rA1 (((cfg1.win 4).blk t).view.emb j) k) := fun k =>
    congrArg (V c main_arg4 : S64x64.Idx → EReal) (by
      funext a; apply Fin.ext
      match a with
      | ⟨0, _⟩ => show win1_3.index t (0 : Fin 2) * 64 + 1 * k.val = k.val; omega
      | ⟨1, _⟩ => show win1_3.index t (1 : Fin 2) * 64 + 1 * (j 1).val = win1_4.index t (1 : Fin 2) * 64 + 1 * (j 1).val; omega)
  have hd : iblk1 V c 1 t (nodeB j) = (V c main_v12 : S50000x1.Idx → EReal) (nodeOf (((cfg1.win 4).blk t).view.emb j)) :=
    congrArg (V c main_v12 : S50000x1.Idx → EReal) (by
      funext a; apply Fin.ext
      match a with
      | ⟨0, _⟩ => show win1_1.index t (0 : Fin 2) * 10000 + 1 * (j 0).val = win1_4.index t (0 : Fin 2) * 10000 + 1 * (j 0).val; omega
      | ⟨1, _⟩ => show win1_1.index t (1 : Fin 2) * 1 + 1 * 0 = 0; omega)
  rw [hd]
  simp only [hx, hb, hw]
  rfl

/-- An index of the result array is in point t's block iff each coordinate is in the block's range. -/
theorem mem_blk1 (t : Fin cfg1.N) (i : S50000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v26).slice (win1_4.rect t)).set ↔ _
  rw [View.set_slice_whole, Rect.mem_set_unit]
  exact Iff.rfl

/-- The five blocks tile the result array: row r is in the block of point r / 10000. -/
theorem cover1 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  refine ⟨⟨(i 0).val / 10000, by rw [show cfg1.N = 5 from N_1]; omega⟩, flush1_4 _, ?_⟩
  rw [mem_blk1]
  obtain ⟨e0, e1, e2, e3, e4, e5, e6, e7, e8, e9, e10⟩ := idx_facts1 ⟨(i 0).val / 10000, by rw [show cfg1.N = 5 from N_1]; omega⟩
  intro a
  match a with
  | ⟨0, _⟩ => show win1_4.index _ (0 : Fin 2) * 10000 ≤ (i 0).val ∧ (i 0).val < win1_4.index _ (0 : Fin 2) * 10000 + 10000; rw [e9]; show (i 0).val / 10000 * 10000 ≤ (i 0).val ∧ (i 0).val < (i 0).val / 10000 * 10000 + 10000; omega
  | ⟨1, _⟩ => show win1_4.index _ (1 : Fin 2) * 64 ≤ (i 1).val ∧ (i 1).val < win1_4.index _ (1 : Fin 2) * 64 + 64; rw [e2]; omega

/-- After the second launch the result array is `fusedLayer` of the arrays the launch found. -/
theorem final1 (c : Dev nD) :
    (dat1 V c).arrAt 4 cfg1.N = fusedLayer (V c main_v24) (V c main_v12) (V c main_v25) (V c main_arg4) :=
  (dat1 V c).arrAt_eq_of_cover 4 _ (fun t _ => flushed1_eq V c t) cover1

end

end Cert.KernelIdeal.Layers

end
-- ==== Proof.KEpilogue.lean ====
/-
  The third launch of the kernel program: out = agg · dis + b over [50000, 64], in five blocks of 10000 rows.

  Each grid point t stages rows [10000·t, 10000·(t+1)) of the aggregated features and of the column of per-node
  scales, and the whole bias row; the body multiplies each row by its node's scale and adds the bias row; the
  block is written back to the same rows. The five blocks tile the array, so after the launch the result array
  is the one function `scaleShift` of the three arrays as the launch finds them.
-/
import proofs.«140970_j68298569941218_2_alg».proof.Proof.KBase
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat)
open Idealize.ShloMosaic.ValueIdx

/-- Every row scaled by its node's factor, plus a bias row. -/
def scaleShift (A : S50000x64.Idx → EReal) (d : S50000x1.Idx → EReal) (b : S1x64.Idx → EReal) : S50000x64.Idx → EReal :=
  fun i => A i * d (nodeOf i) + b (featOf i)

/-- The epilogue body on one block, entry by entry. -/
theorem epilogue_apply (x0 : Vec Ideal S10000x64 .f32) (x1 : Vec Ideal S10000x1 .f32) (x2 : Vec Ideal S1x64 .f32) (j : S10000x64.Idx) :
    k2_pay1 x0 x1 x2 j = (x0 j : EReal) * x1 (nodeB j) + x2 (featB j) := by
  unfold k2_pay1
  simp only [shapeCast_self]
  rw [addf_apply, mulf_apply, colBcast_apply, rowBcast_apply]

section
variable (V : (c : Dev nD) → (b : Ref sig .tc) → Buf (Elt Ideal) ((c : Thread nD τ).loc b))

/-- The printed index maps over the five grid points: rows move with the point, columns stay. -/
theorem idx_facts2 : ∀ t : Fin cfg2.N, win2_0.index t (0 : Fin 2) = win2_3.index t (0 : Fin 2)
    ∧ win2_0.index t (1 : Fin 2) = 0 ∧ win2_3.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (0 : Fin 2) = t.val ∧ t.val < 5 :=
  (by decide +kernel : ∀ t : Fin grid2.N, _)

/-- What point t writes back is block t of `scaleShift` of the arrays as the launch finds them. -/
theorem flushed2_eq (c : Dev nD) (t : Fin cfg2.N) :
    (dat2 V c).flushed 3 t = ((cfg2.win 3).blk t).view.read (Elt Ideal)
      (scaleShift (V c main_v37) (V c main_v12) (V c main_v38)) := by
  show (cfg2.win 3).cut (grid2.coords t) ((dat2 V c).after 3 t) = _
  rw [after2_3]
  unfold out2_3
  rw [View.canon_unit_zero hz]
  simp only [View.ld_unit_zero (S := S10000x64) hz, View.ld_unit_zero (S := S10000x1) hz, View.ld_unit_zero (S := S1x64) hz]
  obtain ⟨e0, e1, e2, e3, e4, e5, e6, e7, e8⟩ := idx_facts2 t
  funext j
  show k2_pay1 (iblk2 V c 0 t) (iblk2 V c 1 t) (iblk2 V c 2 t) j = scaleShift (V c main_v37) (V c main_v12) (V c main_v38) (((cfg2.win 3).blk t).view.emb j)
  rw [epilogue_apply]
  have h0 : ((cfg2.win 0).blk t).view.emb j = ((cfg2.win 3).blk t).view.emb j := by
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 64 + 1 * (j 1).val = win2_3.index t (1 : Fin 2) * 64 + 1 * (j 1).val; omega
  have h1 : ((cfg2.win 1).blk t).view.emb (nodeB j) = nodeOf (((cfg2.win 3).blk t).view.emb j) := by
    funext a; apply Fin.ext
    match a with
    | ⟨0, _⟩ => show win2_1.index t (0 : Fin 2) * 10000 + 1 * (j 0).val = win2_3.index t (0 : Fin 2) * 10000 + 1 * (j 0).val; omega
    | ⟨1, _⟩ => show win2_1.index t (1 : Fin 2) * 1 + 1 * 0 = 0; omega
  have h2 : ((cfg2.win 2).blk t).view.emb (featB j) = featOf (((cfg2.win 3).blk t).view.emb j) := by
    funext a; apply Fin.ext
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega
  have k0 : iblk2 V c 0 t j = (V c main_v37 : S50000x64.Idx → EReal) (((cfg2.win 3).blk t).view.emb j) :=
    congrArg (V c main_v37 : S50000x64.Idx → EReal) h0
  have k1 : iblk2 V c 1 t (nodeB j) = (V c main_v12 : S50000x1.Idx → EReal) (nodeOf (((cfg2.win 3).blk t).view.emb j)) :=
    congrArg (V c main_v12 : S50000x1.Idx → EReal) h1
  have k2 : iblk2 V c 2 t (featB j) = (V c main_v38 : S1x64.Idx → EReal) (featOf (((cfg2.win 3).blk t).view.emb j)) :=
    congrArg (V c main_v38 : S1x64.Idx → EReal) h2
  rw [k0, k1, k2]
  rfl

/-- An index of the result array is in point t's block iff each coordinate is in the block's range. -/
theorem mem_blk2 (t : Fin cfg2.N) (i : S50000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v39).slice (win2_3.rect t)).set ↔ _
  rw [View.set_slice_whole, Rect.mem_set_unit]
  exact Iff.rfl

/-- The five blocks tile the result array: row r is in the block of point r / 10000. -/
theorem cover2 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  refine ⟨⟨(i 0).val / 10000, by rw [show cfg2.N = 5 from N_2]; omega⟩, flush2_3 _, ?_⟩
  rw [mem_blk2]
  obtain ⟨e0, e1, e2, e3, e4, e5, e6, e7, e8⟩ := idx_facts2 ⟨(i 0).val / 10000, by rw [show cfg2.N = 5 from N_2]; omega⟩
  intro a
  match a with
  | ⟨0, _⟩ => show win2_3.index _ (0 : Fin 2) * 10000 ≤ (i 0).val ∧ (i 0).val < win2_3.index _ (0 : Fin 2) * 10000 + 10000; rw [e7]; show (i 0).val / 10000 * 10000 ≤ (i 0).val ∧ (i 0).val < (i 0).val / 10000 * 10000 + 10000; omega
  | ⟨1, _⟩ => show win2_3.index _ (1 : Fin 2) * 64 ≤ (i 1).val ∧ (i 1).val < win2_3.index _ (1 : Fin 2) * 64 + 64; rw [e2]; omega

/-- After the third launch the result array is `scaleShift` of the arrays the launch found. -/
theorem final2 (c : Dev nD) :
    (dat2 V c).arrAt 3 cfg2.N = scaleShift (V c main_v37) (V c main_v12) (V c main_v38) :=
  (dat2 V c).arrAt_eq_of_cover 3 _ (fun t _ => flushed2_eq V c t) cover2

end

end Cert.KernelIdeal.Layers

end
-- ==== Proof.KChain.lean ====
/-
  The kernel program's host operations between the launches, as whole-array functions, and the result of @main as
  one term of the argument arrays.

  Before the first launch the host splits the edge list into a column of message sources and a column of message
  targets (each followed by the self-loops 0 … 49999), counts the messages arriving at every node by a scatter of ones
  (`degVec`) and takes the inverse square root (`disCol`, as a column). Between launches it gathers the rows of the
  launch's result named by the sources (negative numbers wrapped once by 50000, then clamped) and scatter-adds them at
  the targets (`aggregate`); a bias vector becomes a row (`biasRow`). Reading the boundary contents back through the
  stretches and launches gives `outK`.
-/
import proofs.«140970_j68298569941218_2_alg».proof.Proof.KProject
import proofs.«140970_j68298569941218_2_alg».proof.Proof.KFused
import proofs.«140970_j68298569941218_2_alg».proof.Proof.KEpilogue
import Idealize.ShloMosaic.Lib.StableHlo.Run

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat)
open Idealize.ShloMosaic.ValueIdx

open Idealize.ShloMosaic.StableHlo

/-- Message sources: row 0 of the edge list, then the self-loops. -/
def srcVec (ei : IVec S2x800000 32) : IVec S850000 32 :=
  concatenate S850000 0 [⟨S800000, shapeCast S800000 (extractStridedSlice S1x800000 ![0, 0] ei slices_S2x800000_S1x800000_0_0) shapeCasts_S1x800000_S800000⟩,
    ⟨S50000, iotaInDim S50000 32 0⟩] concatenates_S800000_S50000_S850000_d0
/-- Message targets: row 1 of the edge list, then the self-loops. -/
def dstVec (ei : IVec S2x800000 32) : IVec S850000 32 :=
  concatenate S850000 0 [⟨S800000, shapeCast S800000 (extractStridedSlice S1x800000 ![1, 0] ei slices_S2x800000_S1x800000_1_0) shapeCasts_S1x800000_S800000⟩,
    ⟨S50000, iotaInDim S50000 32 0⟩] concatenates_S800000_S50000_S850000_d0
/-- A vector of node numbers as a column, negative numbers wrapped once by 50000 (a gather's index column). -/
def wrapCol (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)
/-- A vector of node numbers as a column, as it is (a scatter's index column). -/
def plainCol (v : IVec S850000 32) : IVec S850000x1 32 :=
  broadcastInDim S850000x1 ![0] bcast_S850000_S850000x1_0 v
/-- The number of messages arriving at every node: ones scattered at the targets into zeros. -/
def degVec (dst : IVec S850000 32) : FVec Ideal S50000 .f32 :=
  Host.scatterAdd scatter_S50000_S850000x1_S850000_n_0_0_1
    (broadcastInDim S50000 ![] bcast_S_S50000 (constant (F := Ideal) S_ .f32 0x00000000#32)) (plainCol dst)
    (broadcastInDim S850000 ![] bcast_S_S850000 (constant (F := Ideal) S_ .f32 0x3F800000#32))
/-- Its inverse square root, as a column. -/
def disCol (dst : IVec S850000 32) : FVec Ideal S50000x1 .f32 :=
  shapeCast S50000x1 (Host.rsqrt (degVec dst)) shapeCasts_S50000_S50000x1
/-- Rows gathered at the sources and summed at the targets, into zeros. -/
def aggregate (P : FVec Ideal S50000x64 .bf16) (src dst : IVec S850000 32) : FVec Ideal S50000x64 .f32 :=
  Host.scatterAdd scatter_S50000x64_S850000x1_S850000x64_1_0_0_1
    (broadcastInDim S50000x64 ![] bcast_S_S50000x64 (constant (F := Ideal) S_ .f32 0x00000000#32)) (plainCol dst)
    (extf .f32 (Host.gather gather_S50000x64_S850000x1_S850000x64_1_0_n_n_0_1_164 P (wrapCol src)) bitsLt_bf16_f32)
/-- A bias vector as a row. -/
def biasRow (b : FVec Ideal S64 .f32) : FVec Ideal S1x64 .f32 := shapeCast S1x64 b shapeCasts_S64_S1x64

section Stretches
variable (W : Valuation τ sig (Elt Ideal))

theorem stretch0_src : StableHlo.after hostOps0 W (Proc.devRef .tc main_v3) = srcVec (W (Proc.devRef .tc main_arg1)) := by
  after_results; rfl
theorem stretch0_dst : StableHlo.after hostOps0 W (Proc.devRef .tc main_v6) = dstVec (W (Proc.devRef .tc main_arg1)) := by
  after_results; rfl
theorem stretch0_dis : StableHlo.after hostOps0 W (Proc.devRef .tc main_v12) = disCol (dstVec (W (Proc.devRef .tc main_arg1))) := by
  after_results; rfl
theorem stretch1_agg : StableHlo.after hostOps1 W (Proc.devRef .tc main_v24)
    = aggregate (W (Proc.devRef .tc main_v13)) (W (Proc.devRef .tc main_v3)) (W (Proc.devRef .tc main_v6)) := by
  after_results; rfl
theorem stretch1_bias : StableHlo.after hostOps1 W (Proc.devRef .tc main_v25) = biasRow (W (Proc.devRef .tc main_arg3)) := by
  after_results; rfl
theorem stretch2_agg : StableHlo.after hostOps2 W (Proc.devRef .tc main_v37)
    = aggregate (W (Proc.devRef .tc main_v26)) (W (Proc.devRef .tc main_v3)) (W (Proc.devRef .tc main_v6)) := by
  after_results; rfl
theorem stretch2_bias : StableHlo.after hostOps2 W (Proc.devRef .tc main_v38) = biasRow (W (Proc.devRef .tc main_arg5)) := by
  after_results; rfl

end Stretches

/-- The result of @main as one term of the argument arrays: the three launches over the host's aggregations. -/
def outK (x : FVec Ideal S50000x128 .f32) (ei : IVec S2x800000 32) (W1 : FVec Ideal S128x64 .f32) (b1 : FVec Ideal S64 .f32)
    (W2 : FVec Ideal S64x64 .f32) (b2 : FVec Ideal S64 .f32) : S50000x64.Idx → EReal :=
  scaleShift
    (aggregate
      (fusedLayer (aggregate (projectScale x (disCol (dstVec ei)) W1) (srcVec ei) (dstVec ei)) (disCol (dstVec ei)) (biasRow b1) W2)
      (srcVec ei) (dstVec ei))
    (disCol (dstVec ei)) (biasRow b2)

section Boundaries
variable (m : (ℓ : Loc nD τ sig) → Buf (Elt Ideal) ℓ) (ρ : Dev nD → PrngReg) (c : Dev nD)

/-! The contents at the boundaries, read back. A buffer no operation of a stretch writes keeps its contents through
    the stretch; a launch changes only its output array. -/

theorem W1_arg (b : Ref sig .tc) (hb : b = main_arg0 ∨ b = main_arg1 ∨ b = main_arg2 ∨ b = main_arg3 ∨ b = main_arg4 ∨ b = main_arg5) :
    W1 m ρ c (Proc.devRef .tc b) = m ((c : Thread nD τ).loc b) := by
  rcases hb with rfl | rfl | rfl | rfl | rfl | rfl <;>
  · show StableHlo.after hostOps0 (W0 m ρ c) _ = _
    after_results

theorem W1_src : W1 m ρ c (Proc.devRef .tc main_v3) = srcVec (m ((c : Thread nD τ).loc main_arg1)) := stretch0_src _
theorem W1_dst : W1 m ρ c (Proc.devRef .tc main_v6) = dstVec (m ((c : Thread nD τ).loc main_arg1)) := stretch0_dst _
theorem W1_dis : W1 m ρ c (Proc.devRef .tc main_v12) = disCol (dstVec (m ((c : Thread nD τ).loc main_arg1))) := stretch0_dis _

/-- After the first launch: its result array is `projectScale`; the column of scales, which it only stages, and every
    buffer that is none of its arrays are as before. -/
theorem W2_pre1 : W2 m ρ c (Proc.devRef .tc main_v13)
    = projectScale (m ((c : Thread nD τ).loc main_arg0)) (disCol (dstVec (m ((c : Thread nD τ).loc main_arg1)))) (m ((c : Thread nD τ).loc main_arg2)) := by
  rw [show W2 m ρ c (Proc.devRef .tc main_v13) = (dat0 (V1 m ρ) c).arrAt 3 cfg0.N from W2_arr m ρ c 3, final0]
  show projectScale (W1 m ρ c (Proc.devRef .tc main_arg0)) (W1 m ρ c (Proc.devRef .tc main_v12)) (W1 m ρ c (Proc.devRef .tc main_arg2)) = _
  rw [W1_arg m ρ c main_arg0 (by simp), W1_arg m ρ c main_arg2 (by simp), W1_dis]
theorem W2_dis : W2 m ρ c (Proc.devRef .tc main_v12) = disCol (dstVec (m ((c : Thread nD τ).loc main_arg1))) :=
  ((W2_arr m ρ c 1).trans (((dat0 (V1 m ρ) c).arrAt_in 1 rfl _).trans (A_eq0 (V1 m ρ) c 1))).trans (W1_dis m ρ c)
theorem W2_src : W2 m ρ c (Proc.devRef .tc main_v3) = srcVec (m ((c : Thread nD τ).loc main_arg1)) :=
  (W2_of_ne m ρ c main_v3 (by decide)).trans (W1_src m ρ c)
theorem W2_dst : W2 m ρ c (Proc.devRef .tc main_v6) = dstVec (m ((c : Thread nD τ).loc main_arg1)) :=
  (W2_of_ne m ρ c main_v6 (by decide)).trans (W1_dst m ρ c)
theorem W2_arg3 : W2 m ρ c (Proc.devRef .tc main_arg3) = m ((c : Thread nD τ).loc main_arg3) :=
  (W2_of_ne m ρ c main_arg3 (by decide)).trans (W1_arg m ρ c main_arg3 (by simp))
theorem W2_arg4 : W2 m ρ c (Proc.devRef .tc main_arg4) = m ((c : Thread nD τ).loc main_arg4) :=
  (W2_of_ne m ρ c main_arg4 (by decide)).trans (W1_arg m ρ c main_arg4 (by simp))
theorem W2_arg5 : W2 m ρ c (Proc.devRef .tc main_arg5) = m ((c : Thread nD τ).loc main_arg5) :=
  (W2_of_ne m ρ c main_arg5 (by decide)).trans (W1_arg m ρ c main_arg5 (by simp))

end Boundaries

section Boundaries2
variable (m : (ℓ : Loc nD τ sig) → Buf (Elt Ideal) ℓ) (ρ : Dev nD → PrngReg) (c : Dev nD)

/-- The first aggregation, of the first launch's result. -/
def agg1 : S50000x64.Idx → EReal :=
  aggregate (projectScale (m ((c : Thread nD τ).loc main_arg0)) (disCol (dstVec (m ((c : Thread nD τ).loc main_arg1)))) (m ((c : Thread nD τ).loc main_arg2))) (srcVec (m ((c : Thread nD τ).loc main_arg1))) (dstVec (m ((c : Thread nD τ).loc main_arg1)))
/-- The second launch's result. -/
def pre2 : S50000x64.Idx → EReal :=
  fusedLayer (agg1 m c) (disCol (dstVec (m ((c : Thread nD τ).loc main_arg1)))) (biasRow (m ((c : Thread nD τ).loc main_arg3))) (m ((c : Thread nD τ).loc main_arg4))

theorem W3_agg : W3 m ρ c (Proc.devRef .tc main_v24) = agg1 m c := by
  show StableHlo.after hostOps1 (W2 m ρ c) _ = _
  rw [stretch1_agg, W2_pre1, W2_src, W2_dst]; rfl
theorem W3_bias : W3 m ρ c (Proc.devRef .tc main_v25) = biasRow (m ((c : Thread nD τ).loc main_arg3)) := by
  show StableHlo.after hostOps1 (W2 m ρ c) _ = _
  rw [stretch1_bias, W2_arg3]
theorem W3_dis : W3 m ρ c (Proc.devRef .tc main_v12) = disCol (dstVec (m ((c : Thread nD τ).loc main_arg1))) := by
  show StableHlo.after hostOps1 (W2 m ρ c) _ = _
  after_results; exact W2_dis m ρ c
theorem W3_src : W3 m ρ c (Proc.devRef .tc main_v3) = srcVec (m ((c : Thread nD τ).loc main_arg1)) := by
  show StableHlo.after hostOps1 (W2 m ρ c) _ = _
  after_results; exact W2_src m ρ c
theorem W3_dst : W3 m ρ c (Proc.devRef .tc main_v6) = dstVec (m ((c : Thread nD τ).loc main_arg1)) := by
  show StableHlo.after hostOps1 (W2 m ρ c) _ = _
  after_results; exact W2_dst m ρ c
theorem W3_arg4 : W3 m ρ c (Proc.devRef .tc main_arg4) = m ((c : Thread nD τ).loc main_arg4) := by
  show StableHlo.after hostOps1 (W2 m ρ c) _ = _
  after_results; exact W2_arg4 m ρ c
theorem W3_arg5 : W3 m ρ c (Proc.devRef .tc main_arg5) = m ((c : Thread nD τ).loc main_arg5) := by
  show StableHlo.after hostOps1 (W2 m ρ c) _ = _
  after_results; exact W2_arg5 m ρ c

/-- After the second launch. -/
theorem W4_pre2 : W4 m ρ c (Proc.devRef .tc main_v26) = pre2 m c := by
  rw [show W4 m ρ c (Proc.devRef .tc main_v26) = (dat1 (V3 m ρ) c).arrAt 4 cfg1.N from W4_arr m ρ c 4, final1]
  show fusedLayer (W3 m ρ c (Proc.devRef .tc main_v24)) (W3 m ρ c (Proc.devRef .tc main_v12)) (W3 m ρ c (Proc.devRef .tc main_v25)) (W3 m ρ c (Proc.devRef .tc main_arg4)) = _
  rw [W3_agg, W3_dis, W3_bias, W3_arg4]; rfl
theorem W4_dis : W4 m ρ c (Proc.devRef .tc main_v12) = disCol (dstVec (m ((c : Thread nD τ).loc main_arg1))) :=
  ((W4_arr m ρ c 1).trans (((dat1 (V3 m ρ) c).arrAt_in 1 rfl _).trans (A_eq1 (V3 m ρ) c 1))).trans (W3_dis m ρ c)
theorem W4_src : W4 m ρ c (Proc.devRef .tc main_v3) = srcVec (m ((c : Thread nD τ).loc main_arg1)) :=
  (W4_of_ne m ρ c main_v3 (by decide)).trans (W3_src m ρ c)
theorem W4_dst : W4 m ρ c (Proc.devRef .tc main_v6) = dstVec (m ((c : Thread nD τ).loc main_arg1)) :=
  (W4_of_ne m ρ c main_v6 (by decide)).trans (W3_dst m ρ c)
theorem W4_arg5 : W4 m ρ c (Proc.devRef .tc main_arg5) = m ((c : Thread nD τ).loc main_arg5) :=
  (W4_of_ne m ρ c main_arg5 (by decide)).trans (W3_arg5 m ρ c)

theorem W5_agg : W5 m ρ c (Proc.devRef .tc main_v37) = aggregate (pre2 m c) (srcVec (m ((c : Thread nD τ).loc main_arg1))) (dstVec (m ((c : Thread nD τ).loc main_arg1))) := by
  show StableHlo.after hostOps2 (W4 m ρ c) _ = _
  rw [stretch2_agg, W4_pre2, W4_src, W4_dst]
theorem W5_bias : W5 m ρ c (Proc.devRef .tc main_v38) = biasRow (m ((c : Thread nD τ).loc main_arg5)) := by
  show StableHlo.after hostOps2 (W4 m ρ c) _ = _
  rw [stretch2_bias, W4_arg5]
theorem W5_dis : W5 m ρ c (Proc.devRef .tc main_v12) = disCol (dstVec (m ((c : Thread nD τ).loc main_arg1))) := by
  show StableHlo.after hostOps2 (W4 m ρ c) _ = _
  after_results; exact W4_dis m ρ c

/-- THE RESULT of @main: the last boundary's contents at the result buffer are `outK` of the argument arrays. -/
theorem W6_out : W6 m ρ c (Proc.devRef .tc main_v39)
    = outK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [show W6 m ρ c (Proc.devRef .tc main_v39) = (dat2 (V5 m ρ) c).arrAt 3 cfg2.N from W6_arr m ρ c 3, final2]
  show scaleShift (W5 m ρ c (Proc.devRef .tc main_v37)) (W5 m ρ c (Proc.devRef .tc main_v12)) (W5 m ρ c (Proc.devRef .tc main_v38)) = _
  rw [W5_agg, W5_dis, W5_bias]; rfl

end Boundaries2

end Cert.KernelIdeal.Layers

end
-- ==== Proof.LibSegment.lean ====
/-
  Rows named by a column of row numbers: what `x[rows]` and `segment_sum(u, rows)` read at an index.

  A column `idx : [E, 1]` of signed integers names, for each entry `e`, a row of an array with `N` rows.
  A gather clamps the number into `[0, N - 1]` (`clampRow`); a scatter keeps it as it is and drops the
  entry when it lies outside `[0, N)` (`landRow`). With that reading
    * the gather of whole rows of an `N × C` array is the array at row `clampRow e`, same column;
    * the gather of entries of a length-`N` vector is the vector at `clampRow e`;
    * at the extended reals the accumulating scatter of an `E × C` array of updates into an `N × C` array is,
      at `(n, c)`, the operand plus the sum of the updates `(e, c)` over the entries `e` that land on row `n`;
    * the same for a length-`E` vector of updates into a length-`N` vector.
  No program is imported: the dimension records are stated with their well-formedness as a hypothesis, so a
  program's printed record is one of these by `rfl`.
-/
import Idealize.ShloMosaic.Lib.ValueIdx
import Idealize.ShloMosaic.PureOps.Ideal
import Idealize.ShloMosaic.PureOps.Ideal.Laws
import Idealize.ShloMosaic.PureOps.Contract

noncomputable section

namespace Idealize.ShloMosaic.Segment

open Idealize.ShloMosaic Idealize.ShloMosaic.ValueIdx

variable {N E C w : Nat}

/-- Entry `e` of a column of row numbers, read as a signed integer. -/
def rowInt (idx : IVec ⟨2, ![E, 1]⟩ w) (e : Fin E) : Int := (idx (ix2 e (0 : Fin 1))).toInt

/-- The row entry `e` lands on when the number is used as it is: none when it is outside `[0, N)`. -/
def landRow (N : Nat) (idx : IVec ⟨2, ![E, 1]⟩ w) (e : Fin E) : Option (Fin N) :=
  if h : 0 ≤ rowInt idx e ∧ rowInt idx e < N then some ⟨(rowInt idx e).toNat, by omega⟩ else none

/-- The row entry `e` reads when the number is clamped into `[0, N - 1]`. -/
def clampRow (hN : 0 < N) (idx : IVec ⟨2, ![E, 1]⟩ w) (e : Fin E) : Fin N :=
  ⟨min (rowInt idx e).toNat (N - 1), by omega⟩

/-- An entry that lands on row `n` reads row `n` when clamped, through any column holding the same number there. -/
theorem clampRow_of_landRow (hN : 0 < N) (idx idx' : IVec ⟨2, ![E, 1]⟩ w) (e : Fin E) (n : Fin N)
    (h : landRow N idx e = some n) (h' : rowInt idx' e = rowInt idx e) : clampRow hN idx' e = n := by
  unfold landRow at h
  split at h
  · obtain rfl := Option.some.inj h
    apply Fin.ext
    show min (rowInt idx' e).toNat (N - 1) = (rowInt idx e).toNat
    rw [h']
    omega
  · cases h

/-- The dimension numbers of `x[rows, :]`: operand `[N, C]`, row numbers `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of `v[rows]`: operand `[N]`, row numbers `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of a scatter of rows: operand `[N, C]`, row numbers `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of scalars: operand `[N]`, row numbers `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- `x[rows, :]` at `(e, c)` is `x` at the clamped row of entry `e`, column `c`. -/
theorem gatherRows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow hN idx e) c) := by
  unfold Host.gather
  congr 1
  funext a
  match a with
  | ⟨0, _⟩ =>
    refine Fin.ext ?_
    show (rowGatherDims N E C wf).start (ix2 e c) idx 0 + (rowGatherDims N E C wf).batchCoord (ix2 e c) 0 + (rowGatherDims N E C wf).offCoord (ix2 e c) 0
      = min (rowInt idx e).toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    refine Fin.ext ?_
    show (rowGatherDims N E C wf).start (ix2 e c) idx 1 + (rowGatherDims N E C wf).batchCoord (ix2 e c) 1 + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show ¬ (1 : Fin 2) ∈ ([0] : List (Fin 2)) by decide)]
    have ho : (rowGatherDims N E C wf).offCoord (ix2 e c) 1 = c.val := by
      unfold GatherDims.offCoord
      have hk' : (1 : Fin 2) ∈ (List.finRange 2).filter
          (fun a => decide (a ∉ (([0] : List (Fin 2)) ++ ([] : List (Fin 2))))) := by decide
      have hk : (1 : Fin 2) ∈ (rowGatherDims N E C wf).sKept := hk'
      rw [dif_pos hk]
      rfl
    rw [hs, ho]
    simp

/-- `v[rows]` at `e` is `v` at the clamped row of entry `e`. -/
theorem gatherVec_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0 + (vecGatherDims N E wf).offCoord (ix1 e) 0
    = min (rowInt idx e).toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The start of update `(e, c)` of a scatter of rows on the row axis is the row number of entry `e`. -/
theorem rowScatter_start0 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = rowInt idx e := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The start of every update of a scatter of rows on the column axis is `0`. -/
theorem rowScatter_start1 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show ¬ (1 : Fin 2) ∈ ([0] : List (Fin 2)) by decide)]

/-- The window coordinate of update `(e, c)` of a scatter of rows on the row axis is `0`. -/
theorem rowScatter_window0 (wf : ScatterDims.WF ⟨2, ![N, C]⟩ ⟨2, ![E, 1]⟩ ⟨2, ![E, C]⟩ [1] [0] [0] 1) (e : Fin E) (c : Fin C) :
    (rowScatterDims N E C wf).window (ix2 e c) 0 = 0 := by
  unfold ScatterDims.window
  have hk : (0 : Fin 2) ∉ (rowScatterDims N E C wf).sKept :=
    (show ¬ (0 : Fin 2) ∈ (List.finRange 2).filter (fun a => decide (a ∉ ([0] : List (Fin 2)))) by decide)
  rw [dif_neg hk]

/-- The window coordinate of update `(e, c)` of a scatter of rows on the column axis is `c`. -/
theorem rowScatter_window1 (wf : ScatterDims.WF ⟨2, ![N, C]⟩ ⟨2, ![E, 1]⟩ ⟨2, ![E, C]⟩ [1] [0] [0] 1) (e : Fin E) (c : Fin C) :
    (rowScatterDims N E C wf).window (ix2 e c) 1 = c.val := by
  unfold ScatterDims.window
  have hk : (1 : Fin 2) ∈ (rowScatterDims N E C wf).sKept :=
    (show (1 : Fin 2) ∈ (List.finRange 2).filter (fun a => decide (a ∉ ([0] : List (Fin 2)))) by decide)
  rw [dif_pos hk]
  rfl

/-- Where update `(e, c)` of a scatter of rows lands: row `landRow e`, column `c`, or nowhere. -/
theorem rowScatter_resultIdx (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).resultIdx? (ix2 e c) idx = (landRow N idx e).map (fun n => ix2 n c) := by
  have h0 := rowScatter_start0 wf idx e c
  have h1 := rowScatter_start1 wf idx e c
  have w0 := rowScatter_window0 (N := N) wf e c
  have w1 := rowScatter_window1 (N := N) wf e c
  unfold ScatterDims.resultIdx? landRow
  by_cases hr : 0 ≤ rowInt idx e ∧ rowInt idx e < N
  · have hall : ∀ a : Fin 2, 0 ≤ (rowScatterDims N E C wf).start (ix2 e c) idx a + ((rowScatterDims N E C wf).window (ix2 e c) a : Int)
        ∧ (rowScatterDims N E C wf).start (ix2 e c) idx a + ((rowScatterDims N E C wf).window (ix2 e c) a : Int) < ((⟨2, ![N, C]⟩ : Shape).size a : Int) := by
      intro a
      match a with
      | ⟨0, _⟩ =>
        show 0 ≤ (rowScatterDims N E C wf).start (ix2 e c) idx 0 + ((rowScatterDims N E C wf).window (ix2 e c) 0 : Int)
          ∧ (rowScatterDims N E C wf).start (ix2 e c) idx 0 + ((rowScatterDims N E C wf).window (ix2 e c) 0 : Int) < (N : Int)
        rw [h0, w0]; omega
      | ⟨1, _⟩ =>
        show 0 ≤ (rowScatterDims N E C wf).start (ix2 e c) idx 1 + ((rowScatterDims N E C wf).window (ix2 e c) 1 : Int)
          ∧ (rowScatterDims N E C wf).start (ix2 e c) idx 1 + ((rowScatterDims N E C wf).window (ix2 e c) 1 : Int) < (C : Int)
        rw [h1, w1]; have := c.isLt; omega
    rw [dif_pos hall, dif_pos hr]
    show some _ = some _
    congr 1
    funext a
    match a with
    | ⟨0, _⟩ =>
      refine Fin.ext ?_
      show ((rowScatterDims N E C wf).start (ix2 e c) idx 0 + ((rowScatterDims N E C wf).window (ix2 e c) 0 : Int)).toNat = (rowInt idx e).toNat
      rw [h0, w0]; simp
    | ⟨1, _⟩ =>
      refine Fin.ext ?_
      show ((rowScatterDims N E C wf).start (ix2 e c) idx 1 + ((rowScatterDims N E C wf).window (ix2 e c) 1 : Int)).toNat = c.val
      rw [h1, w1]; simp
  · have hnot : ¬ ∀ a : Fin 2, 0 ≤ (rowScatterDims N E C wf).start (ix2 e c) idx a + ((rowScatterDims N E C wf).window (ix2 e c) a : Int)
        ∧ (rowScatterDims N E C wf).start (ix2 e c) idx a + ((rowScatterDims N E C wf).window (ix2 e c) a : Int) < ((⟨2, ![N, C]⟩ : Shape).size a : Int) := by
      intro hall
      have h := hall 0
      have h' : 0 ≤ (rowScatterDims N E C wf).start (ix2 e c) idx 0 + ((rowScatterDims N E C wf).window (ix2 e c) 0 : Int)
          ∧ (rowScatterDims N E C wf).start (ix2 e c) idx 0 + ((rowScatterDims N E C wf).window (ix2 e c) 0 : Int) < (N : Int) := h
      rw [h0, w0] at h'
      exact hr (by omega)
    rw [dif_neg hnot, dif_neg hr]
    rfl

/-- The start of update `e` of a scatter of scalars is the row number of entry `e`. -/
theorem vecScatter_start0 (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = rowInt idx e := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The window coordinate of every update of a scatter of scalars is `0`. -/
theorem vecScatter_window0 (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  have hk' : ¬ (0 : Fin 1) ∈ (List.finRange 1).filter (fun a => decide (a ∉ ([0] : List (Fin 1)))) := by decide
  have hk : (0 : Fin 1) ∉ (vecScatterDims N E wf).sKept := hk'
  rw [dif_neg hk]

/-- Where update `e` of a scatter of scalars lands: entry `landRow e`, or nowhere. -/
theorem vecScatter_resultIdx (wf : ScatterDims.WF ⟨1, ![N]⟩ ⟨2, ![E, 1]⟩ ⟨1, ![E]⟩ [] [0] [0] 1)
    (idx : IVec ⟨2, ![E, 1]⟩ w) (e : Fin E) :
    (vecScatterDims N E wf).resultIdx? (ix1 e) idx = (landRow N idx e).map (fun n => ix1 n) := by
  have h0 := vecScatter_start0 wf idx e
  have w0 := vecScatter_window0 (N := N) wf e
  unfold ScatterDims.resultIdx? landRow
  by_cases hr : 0 ≤ rowInt idx e ∧ rowInt idx e < N
  · have hall : ∀ a : Fin 1, 0 ≤ (vecScatterDims N E wf).start (ix1 e) idx a + ((vecScatterDims N E wf).window (ix1 e) a : Int)
        ∧ (vecScatterDims N E wf).start (ix1 e) idx a + ((vecScatterDims N E wf).window (ix1 e) a : Int) < ((⟨1, ![N]⟩ : Shape).size a : Int) := by
      intro a
      match a with
      | ⟨0, _⟩ =>
        show 0 ≤ (vecScatterDims N E wf).start (ix1 e) idx 0 + ((vecScatterDims N E wf).window (ix1 e) 0 : Int)
        ∧ (vecScatterDims N E wf).start (ix1 e) idx 0 + ((vecScatterDims N E wf).window (ix1 e) 0 : Int) < (N : Int)
        rw [h0, w0]; omega
    rw [dif_pos hall, dif_pos hr]
    show some _ = some _
    congr 1
    funext a
    match a with
    | ⟨0, _⟩ =>
      refine Fin.ext ?_
      show ((vecScatterDims N E wf).start (ix1 e) idx 0 + ((vecScatterDims N E wf).window (ix1 e) 0 : Int)).toNat = (rowInt idx e).toNat
      rw [h0, w0]; simp
  · have hnot : ¬ ∀ a : Fin 1, 0 ≤ (vecScatterDims N E wf).start (ix1 e) idx a + ((vecScatterDims N E wf).window (ix1 e) a : Int)
        ∧ (vecScatterDims N E wf).start (ix1 e) idx a + ((vecScatterDims N E wf).window (ix1 e) a : Int) < ((⟨1, ![N]⟩ : Shape).size a : Int) := by
      intro hall
      have h := hall 0
      have h' : 0 ≤ (vecScatterDims N E wf).start (ix1 e) idx 0 + ((vecScatterDims N E wf).window (ix1 e) 0 : Int)
        ∧ (vecScatterDims N E wf).start (ix1 e) idx 0 + ((vecScatterDims N E wf).window (ix1 e) 0 : Int) < (N : Int) := h
      rw [h0, w0] at h'
      exact hr (by omega)
    rw [dif_neg hnot, dif_neg hr]
    rfl

/-- At the extended reals the accumulating scatter of rows, at `(n, c)`: the operand there plus the updates
    `(e, c)` of the entries `e` landing on row `n`. -/
theorem scatterAddRows_apply {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (rowScatterDims N E C wf) x idx upd (ix2 n c)
      = (x (ix2 n c) : EReal) + ∑ e ∈ Finset.univ.filter (fun e : Fin E => landRow N idx e = some n), (upd (ix2 e c) : EReal) := by
  show Ideal.hostScatterAdd (rowScatterDims N E C wf) x idx upd (ix2 n c) = _
  unfold Ideal.hostScatterAdd
  congr 1
  rw [Finset.sum_filter, Finset.sum_filter, sum_idx2]
  refine Finset.sum_congr rfl fun a _ => ?_
  have hP : ∀ b : Fin C, ((rowScatterDims N E C wf).resultIdx? (ix2 a b) idx = some (ix2 n c)) ↔ (landRow N idx a = some n ∧ b = c) := by
    intro b
    rw [rowScatter_resultIdx]
    cases landRow N idx a with
    | none => simp
    | some m =>
      simp only [Option.map_some, Option.some.injEq]
      constructor
      · intro h
        exact ⟨congrFun h 0, congrFun h 1⟩
      · rintro ⟨rfl, rfl⟩; rfl
  simp only [hP]
  by_cases hl : landRow N idx a = some n
  · simp [hl, Finset.sum_ite_eq']
  · simp [hl]

/-- A sum over the indices of a length-`n` vector is the sum over its one coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ ?_
  intro i
  exact congrArg f (eq_ix1 i)

/-- At the extended reals the accumulating scatter of scalars, at `n`: the operand there plus the updates of
    the entries landing on `n`. -/
theorem scatterAddVec_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = (x (ix1 n) : EReal) + ∑ e ∈ Finset.univ.filter (fun e : Fin E => landRow N idx e = some n), (upd (ix1 e) : EReal) := by
  show Ideal.hostScatterAdd (vecScatterDims N E wf) x idx upd (ix1 n) = _
  unfold Ideal.hostScatterAdd
  congr 1
  rw [Finset.sum_filter, Finset.sum_filter, sum_idx1]
  refine Finset.sum_congr rfl fun a _ => ?_
  have hP : ((vecScatterDims N E wf).resultIdx? (ix1 a) idx = some (ix1 n)) ↔ landRow N idx a = some n := by
    rw [vecScatter_resultIdx]
    cases landRow N idx a with
    | none => simp
    | some m =>
      simp only [Option.map_some, Option.some.injEq]
      constructor
      · intro h
        exact congrFun h 0
      · rintro rfl; rfl
  simp only [hP]

end Idealize.ShloMosaic.Segment

end
-- ==== Proof.GcnLaw.lean ====
/-
  The two spellings of a graph-convolution layer with symmetric normalisation, and their equality on the
  extended reals.

  A column `dst` of 850000 row numbers sends entry e to node `landRow dst e` (nowhere when out of range); `into dst n`
  is the set of entries landing on node n, `deg n` its size (as the sum of ones a scatter computes) and
  `dis n = deg n ^ (-1/2)`. A column `src` names the node `srcRow src e` each entry reads from (clamped).

  The reference scales every message by dis(source) · dis(target) before summing (`layerR`); the kernel scales the
  features by dis(source) before the sum and the sum by dis(target) after it (`layerK`). They agree: when no entry
  lands on n both sums are empty, and when one does deg n ≥ 1, so dis n is a finite non-negative real, and
  multiplication by such a number distributes over sums of extended reals (`sum_mul_of_nonneg`). No finiteness of the
  features is needed. `gcn` is the two-layer network over either spelling, so the two networks are one function.
-/
import proofs.«140970_j68298569941218_2_alg».proof.Proof.LibSegment
import Idealize.ShloMosaic.PureOps.Ideal.Laws

noncomputable section

namespace Cert.Gcn

open Idealize.ShloMosaic Idealize.ShloMosaic.Segment

/-- A column of 850000 row numbers. -/
abbrev Col : Type := IVec ⟨2, ![850000, 1]⟩ 32

/-- The two float words the programs use, read as extended reals. -/
abbrev zeroW : EReal := Ideal.ofBits .f32 0x00000000#32
abbrev oneW : EReal := Ideal.ofBits .f32 0x3F800000#32

theorem zeroW_eq : zeroW = 0 := Ideal.ofBits_zero_f32
theorem oneW_eq : oneW = 1 := by
  simp [oneW, Ideal.ofBits, Ideal.ieee, -EReal.coe_mul]; norm_num

/-- The entries that land on node n. -/
def into (dst : Col) (n : Fin 50000) : Finset (Fin 850000) :=
  Finset.univ.filter fun e => landRow 50000 dst e = some n
/-- The node entry e reads from. -/
def srcRow (src : Col) (e : Fin 850000) : Fin 50000 := clampRow (by decide) src e
/-- The number of entries landing on n, as the scatter of ones computes it. -/
def deg (dst : Col) (n : Fin 50000) : EReal := zeroW + ∑ _e ∈ into dst n, oneW
/-- Its inverse square root. -/
def dis (dst : Col) (n : Fin 50000) : EReal := Ideal.rsqrt (deg dst n)

/-- The kernel's spelling: features scaled at the source, the sum scaled at the target. -/
def layerK (src dst : Col) (Y : Fin 50000 → Fin 64 → EReal) (n : Fin 50000) (c : Fin 64) : EReal :=
  (zeroW + ∑ e ∈ into dst n, Y (srcRow src e) c * dis dst (srcRow src e)) * dis dst n
/-- The reference's spelling: every message scaled by both factors, the target's read through a second (wrapped,
    clamped) copy `dstW` of the column. -/
def layerR (src dst dstW : Col) (Y : Fin 50000 → Fin 64 → EReal) (n : Fin 50000) (c : Fin 64) : EReal :=
  zeroW + ∑ e ∈ into dst n, Y (srcRow src e) c * (dis dst (srcRow src e) * dis dst (srcRow dstW e))

/-- Multiplication by a finite non-negative number distributes over a finite sum of extended reals. -/
theorem sum_mul_of_nonneg {ι : Type} (S : Finset ι) (f : ι → EReal) {x : EReal} (h0 : 0 ≤ x) (ht : x ≠ ⊤) :
    (∑ e ∈ S, f e) * x = ∑ e ∈ S, f e * x := by
  classical
  induction S using Finset.induction_on with
  | empty => simp
  | insert a S ha ih =>
    rw [Finset.sum_insert ha, Finset.sum_insert ha, EReal.right_distrib_of_nonneg_of_ne_top h0 ht, ih]

/-- The degree is the number of entries landing on the node. -/
theorem deg_eq (dst : Col) (n : Fin 50000) : deg dst n = (((into dst n).card : ℝ) : EReal) := by
  unfold deg
  rw [zeroW_eq, zero_add, oneW_eq]
  classical
  induction (into dst n) using Finset.induction_on with
  | empty => simp
  | insert a S ha ih =>
    rw [Finset.sum_insert ha, ih, Finset.card_insert_of_notMem ha, Nat.cast_succ, EReal.coe_add, EReal.coe_one, add_comm]

/-- Where an entry lands, the scale is a finite non-negative real. -/
theorem dis_finite (dst : Col) (n : Fin 50000) (h : (into dst n).Nonempty) : 0 ≤ dis dst n ∧ dis dst n ≠ ⊤ := by
  unfold dis
  rw [deg_eq]
  have hc : (0 : ℝ) < ((into dst n).card : ℝ) := by exact_mod_cast Finset.card_pos.mpr h
  rw [Ideal.rsqrt_coe, if_neg (not_lt.mpr hc.le), if_neg hc.ne']
  exact ⟨EReal.coe_nonneg.mpr (inv_nonneg.mpr (Real.sqrt_nonneg _)), EReal.coe_ne_top _⟩

/-- An entry that lands somewhere holds a non-negative number. -/
theorem rowInt_nonneg_of_landRow {N : Nat} (idx : Col) (e : Fin 850000) (n : Fin N) (h : landRow N idx e = some n) :
    0 ≤ rowInt idx e := by
  unfold landRow at h
  split at h
  · rename_i hc; exact hc.1
  · exact absurd h (by simp)

/-- THE LAW: the two spellings of a layer agree, when the second copy of the target column holds the same number
    wherever that number is non-negative. -/
theorem layer_eq (src dst dstW : Col) (hW : ∀ e, 0 ≤ rowInt dst e → rowInt dstW e = rowInt dst e)
    (Y : Fin 50000 → Fin 64 → EReal) (n : Fin 50000) (c : Fin 64) :
    layerK src dst Y n c = layerR src dst dstW Y n c := by
  unfold layerK layerR
  have hrow : ∀ e ∈ into dst n, srcRow dstW e = n := fun e he => by
    have hl : landRow 50000 dst e = some n := (Finset.mem_filter.mp he).2
    exact clampRow_of_landRow _ dst dstW e n hl (hW e (rowInt_nonneg_of_landRow dst e n hl))
  have hR : ∑ e ∈ into dst n, Y (srcRow src e) c * (dis dst (srcRow src e) * dis dst (srcRow dstW e))
      = ∑ e ∈ into dst n, Y (srcRow src e) c * dis dst (srcRow src e) * dis dst n :=
    Finset.sum_congr rfl fun e he => by rw [hrow e he, mul_assoc]
  rw [hR, zeroW_eq, zero_add, zero_add]
  rcases (into dst n).eq_empty_or_nonempty with h | h
  · rw [h, Finset.sum_empty, Finset.sum_empty, zero_mul]
  · obtain ⟨h0, ht⟩ := dis_finite dst n h
    exact sum_mul_of_nonneg _ _ h0 ht

/-- The two-layer network over a spelling `Lyr` of the layer: layer, bias, maximum with the zero word, second
    product, layer, bias; the two matrix products as plain sums. -/
def gcn (Lyr : (Fin 50000 → Fin 64 → EReal) → Fin 50000 → Fin 64 → EReal)
    (x : Fin 50000 → Fin 128 → EReal) (W1 : Fin 128 → Fin 64 → EReal) (b1 : Fin 64 → EReal)
    (W2 : Fin 64 → Fin 64 → EReal) (b2 : Fin 64 → EReal) (n : Fin 50000) (c : Fin 64) : EReal :=
  Lyr (fun m c' => ∑ k : Fin 64,
      max (Lyr (fun m' k' => ∑ q : Fin 128, x m' q * W1 q k') m k + b1 k) zeroW * W2 k c') n c + b2 c

/-- The networks over the two spellings are one function. -/
theorem gcn_eq (src dst dstW : Col) (hW : ∀ e, 0 ≤ rowInt dst e → rowInt dstW e = rowInt dst e) :
    gcn (layerK src dst) = gcn (layerR src dst dstW) := by
  have : layerK src dst = layerR src dst dstW := funext fun Y => funext fun n => funext fun c => layer_eq src dst dstW hW Y n c
  rw [this]

end Cert.Gcn

end
-- ==== Proof.KHostRead.lean ====
/-
  The kernel program's result, read entry by entry.

  The host's aggregation at (n, c) is the zero word plus the sum, over the messages e arriving at n, of the gathered
  row's entry (source e, c); the column of scales at node n is dis n; a bias row at k is the bias at k. Substituting
  these into the three launches' whole-array functions, the first launch and aggregation followed by the second
  launch's scaling are one layer in the kernel's spelling (`layerK`), the second launch's product, the second
  aggregation and the third launch's scaling are the other, and the result is the two-layer network over `layerK`.
-/
import proofs.«140970_j68298569941218_2_alg».proof.Proof.KChain
import proofs.«140970_j68298569941218_2_alg».proof.Proof.LibSegment
import proofs.«140970_j68298569941218_2_alg».proof.Proof.GcnLaw

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat)
open Idealize.ShloMosaic.ValueIdx

open Idealize.ShloMosaic.Segment Cert.Gcn

/-! ## Coordinates of the launches' index maps -/

theorem lA0_ix2 (m : Fin 50000) (k : Fin 64) (q : Fin 128) : lA0 (ix2 m k) q = ix2 m q :=
  funext fun a => by match a with | ⟨0, _⟩ => rfl | ⟨1, _⟩ => rfl
theorem rA0_ix2 (m : Fin 50000) (k : Fin 64) (q : Fin 128) : rA0 (ix2 m k) q = ix2 q k :=
  funext fun a => by match a with | ⟨0, _⟩ => rfl | ⟨1, _⟩ => rfl
theorem lA1_ix2 (m : Fin 50000) (c : Fin 64) (k : Fin 64) : lA1 (ix2 m c) k = ix2 m k :=
  funext fun a => by match a with | ⟨0, _⟩ => rfl | ⟨1, _⟩ => rfl
theorem rA1_ix2 (m : Fin 50000) (c : Fin 64) (k : Fin 64) : rA1 (ix2 m c) k = ix2 k c :=
  funext fun a => by match a with | ⟨0, _⟩ => rfl | ⟨1, _⟩ => rfl
theorem nodeOf_ix2 (m : Fin 50000) (c : Fin 64) : nodeOf (ix2 m c) = ix2 m (0 : Fin 1) :=
  funext fun a => by match a with | ⟨0, _⟩ => rfl | ⟨1, _⟩ => rfl
theorem featOf_ix2 (m : Fin 50000) (c : Fin 64) : featOf (ix2 m c) = ix2 (0 : Fin 1) c :=
  funext fun a => by match a with | ⟨0, _⟩ => rfl | ⟨1, _⟩ => rfl
theorem biasAt_ix2 (k : Fin 64) : biasAt k = ix2 (0 : Fin 1) k :=
  funext fun a => by match a with | ⟨0, _⟩ => rfl | ⟨1, _⟩ => rfl

/-! ## The host's functions at coordinates -/

/-- The aggregation at (n, c): over the messages arriving at n, the gathered row's entry. -/
theorem aggregate_apply (P : FVec Ideal S50000x64 .bf16) (s d : IVec S850000 32) (n : Fin 50000) (c : Fin 64) :
    aggregate P s d (ix2 n c) = zeroW + ∑ e ∈ into (plainCol d) n, (P (ix2 (srcRow (wrapCol s) e) c) : EReal) := by
  unfold aggregate
  refine (scatterAddRows_apply (N := 50000) (E := 850000) (C := 64) (φ := .f32) Facts₀.scatter_S50000x64_S850000x1_S850000x64_1_0_0_1_wf
    _ (plainCol d) _ n c).trans ?_
  refine congrArg₂ (· + ·) ?_ (Finset.sum_congr rfl fun e _ => ?_)
  · exact broadcastInDim_apply _ bcast_S_S50000x64 _ _ (fun a => a.elim0) (fun a => a.elim0)
  · rw [extf_apply]
    exact gatherRows_apply (N := 50000) (E := 850000) (C := 64) (by decide) Facts₀.gather_S50000x64_S850000x1_S850000x64_1_0_n_n_0_1_164_wf P (wrapCol s) e c

/-- The degree at n. -/
theorem degVec_apply (d : IVec S850000 32) (n : Fin 50000) : degVec d (ix1 n) = deg (plainCol d) n := by
  unfold degVec
  refine (scatterAddVec_apply (N := 50000) (E := 850000) (φ := .f32) Facts₀.scatter_S50000_S850000x1_S850000_n_0_0_1_wf
    _ (plainCol d) _ n).trans ?_
  refine congrArg₂ (· + ·) ?_ (Finset.sum_congr rfl fun e _ => ?_)
  · exact broadcastInDim_apply _ bcast_S_S50000 _ _ (fun a => a.elim0) (fun a => a.elim0)
  · exact broadcastInDim_apply _ bcast_S_S850000 _ _ (fun a => a.elim0) (fun a => a.elim0)

/-- The host's inverse square root of a vector, entry by entry. -/
theorem hostRsqrt_apply (v : FVec Ideal S50000 .f32) (i : S50000.Idx) : Host.rsqrt v i = Ideal.rsqrt (v i) := rfl

/-- The column of scales at node n. -/
theorem disCol_apply (d : IVec S850000 32) (n : Fin 50000) : disCol d (ix2 n (0 : Fin 1)) = dis (plainCol d) n := by
  unfold disCol
  rw [shapeCast_apply (Host.rsqrt (degVec d)) shapeCasts_S50000_S50000x1 (ix2 n (0 : Fin 1)) (ix1 n)
    (by rewrite [Shape.rowMajor_val_one, Shape.rowMajor_val_two]; show n.val = n.val * 1 + 0; omega)]
  exact (hostRsqrt_apply _ _).trans (congrArg Ideal.rsqrt (degVec_apply d n))

/-- A bias row at k. -/
theorem biasRow_apply (b : FVec Ideal S64 .f32) (k : Fin 64) : biasRow b (ix2 (0 : Fin 1) k) = b (ix1 k) := by
  unfold biasRow
  exact shapeCast_apply b shapeCasts_S64_S1x64 (ix2 (0 : Fin 1) k) (ix1 k)
    (by rewrite [Shape.rowMajor_val_one, Shape.rowMajor_val_two]; show k.val = 0 * 64 + k.val; omega)

end Cert.KernelIdeal.Layers

end
-- ==== Proof.KNetwork.lean ====
/-
  The kernel program's result as the two-layer network.

  Substituting the host's functions at coordinates into the three launches' whole-array functions: the first launch
  and the first aggregation, with the second launch's scaling at the target, are one layer in the kernel's spelling
  (`layerK`); the second launch's product, the second aggregation and the third launch's scaling are the other; the
  result is the two-layer network over `layerK`.
-/
import proofs.«140970_j68298569941218_2_alg».proof.Proof.KHostRead

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat)
open Idealize.ShloMosaic.ValueIdx

open Idealize.ShloMosaic.Segment Cert.Gcn

section Network
variable (x : FVec Ideal S50000x128 .f32) (ei : IVec S2x800000 32) (W1 : FVec Ideal S128x64 .f32) (b1 : FVec Ideal S64 .f32)
  (W2 : FVec Ideal S64x64 .f32) (b2 : FVec Ideal S64 .f32)

/-- The two columns of row numbers: sources (wrapped), targets. -/
abbrev srcK : Col := wrapCol (srcVec ei)
abbrev dstK : Col := plainCol (dstVec ei)

/-- x · W1 at coordinates. -/
abbrev xw : Fin 50000 → Fin 64 → EReal := fun m' k' => ∑ q : Fin 128, (x (ix2 m' q) : EReal) * W1 (ix2 q k')

/-- The first launch's result: the product scaled at its own node. -/
theorem pre1_apply (m : Fin 50000) (k : Fin 64) :
    projectScale x (disCol (dstVec ei)) W1 (ix2 m k) = xw x W1 m k * dis (dstK ei) m := by
  simp only [projectScale, lA0_ix2, rA0_ix2, nodeOf_ix2, disCol_apply]

/-- The first aggregation scaled at the target (as the second launch does) is the first layer. -/
theorem layer1K (m : Fin 50000) (k : Fin 64) :
    (aggregate (projectScale x (disCol (dstVec ei)) W1) (srcVec ei) (dstVec ei) (ix2 m k) : EReal) * dis (dstK ei) m
      = layerK (srcK ei) (dstK ei) (xw x W1) m k := by
  rw [aggregate_apply]
  unfold layerK
  refine congrArg (· * dis (dstK ei) m) (congrArg (zeroW + ·) (Finset.sum_congr rfl fun e _ => ?_))
  exact pre1_apply x ei W1 _ k

/-- hidden · W2 at coordinates. -/
abbrev hw : Fin 50000 → Fin 64 → EReal := fun m c' => ∑ k : Fin 64,
  max (layerK (srcK ei) (dstK ei) (xw x W1) m k + (b1 (ix1 k) : EReal)) zeroW * W2 (ix2 k c')

/-- The second launch's result: the second product scaled at its own node. -/
theorem pre2_apply (m : Fin 50000) (c' : Fin 64) :
    fusedLayer (aggregate (projectScale x (disCol (dstVec ei)) W1) (srcVec ei) (dstVec ei)) (disCol (dstVec ei)) (biasRow b1) W2 (ix2 m c')
      = hw x ei W1 b1 W2 m c' * dis (dstK ei) m := by
  simp only [fusedLayer, lA1_ix2, rA1_ix2, nodeOf_ix2, biasAt_ix2, disCol_apply, biasRow_apply]
  refine congrArg (· * dis (dstK ei) m) (Finset.sum_congr rfl fun k _ => ?_)
  rw [layer1K]

/-- THE KERNEL'S RESULT, entry by entry: the two-layer network over the kernel's spelling of a layer. -/
theorem outK_apply (n : Fin 50000) (c : Fin 64) :
    outK x ei W1 b1 W2 b2 (ix2 n c)
      = gcn (layerK (srcK ei) (dstK ei)) (fun m q => x (ix2 m q)) (fun q k => W1 (ix2 q k)) (fun k => b1 (ix1 k))
          (fun k c' => W2 (ix2 k c')) (fun c' => b2 (ix1 c')) n c := by
  unfold outK
  simp only [scaleShift, nodeOf_ix2, featOf_ix2, disCol_apply, biasRow_apply]
  unfold gcn
  refine congrArg (· + (b2 (ix1 c) : EReal)) ?_
  rw [aggregate_apply]
  unfold layerK
  refine congrArg (· * dis (dstK ei) n) (congrArg (zeroW + ·) (Finset.sum_congr rfl fun e _ => ?_))
  exact pre2_apply x ei W1 b1 W2 _ c

end Network

end Cert.KernelIdeal.Layers

end
-- ==== Proof.RValue.lean ====
/-
  The reference program's result, read entry by entry.

  The reference computes deg by a scatter of ones at the message targets, dis = deg^(-1/2), a per-message factor
  norm e = dis(source e) · dis(target e) (both read by gathers, whose row numbers are wrapped once and clamped), and
  twice: a product with a weight matrix, a gather of its rows at the sources, the per-message factor, a scatter-add at
  the targets, a bias; a maximum with the zero word in between. Each stage is read at coordinates from the generated
  one-operation lemmas, the gathers and scatters through the row-number lemmas; together the result is the two-layer
  network over the reference's spelling `layerR` of a layer.
-/
import proofs.«140970_j68298569941218_2_alg».proof.Proof.Gen.ReferenceIdeal.Read
import proofs.«140970_j68298569941218_2_alg».proof.Proof.LibSegment
import proofs.«140970_j68298569941218_2_alg».proof.Proof.GcnLaw

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Idealize.ShloMosaic.Segment Cert.Gcn

variable (x0 : (⟨S50000x128, .f32⟩ : BufTy).Contents (Elt Ideal)) (x1 : (⟨S2x800000, .i32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))

/-- The three columns of row numbers: sources (wrapped), targets, targets (wrapped). -/
abbrev srcC : Col := val_main_v17 (F := Ideal) x1
abbrev dstC : Col := val_main_v9 (F := Ideal) x1
abbrev dstWC : Col := val_main_v24 (F := Ideal) x1

/-- The degree of node n: ones scattered at the targets into zeros. -/
theorem deg_read (n : Fin 50000) : val_main_v10 (F := Ideal) x1 (ix1 n) = deg (dstC x1) n := by
  unfold val_main_v10
  refine (scatterAddVec_apply (N := 50000) (E := 850000) (φ := .f32) Facts₀.scatter_S50000_S850000x1_S850000_n_0_0_1_wf
    (val_main_v8 (F := Ideal)) (val_main_v9 (F := Ideal) x1) (val_main_v7 (F := Ideal)) n).trans ?_
  unfold deg into
  refine congrArg₂ (· + ·) ?_ ?_
  · rw [val_main_v8_apply]
    rfl
  · refine Finset.sum_congr rfl fun e _ => ?_
    rw [val_main_v7_apply]; rfl

/-- The scale of node n. -/
theorem dis_read (n : Fin 50000) : val_main_v11 (F := Ideal) x1 (ix1 n) = dis (dstC x1) n := by
  rw [val_main_v11_apply, Ideal.hostUnary_rsqrt_def, deg_read]
  rfl

/-- The factor of message e. -/
theorem norm_read (e : Fin 850000) :
    val_main_v26 (F := Ideal) x1 (ix1 e) = dis (dstC x1) (srcRow (srcC x1) e) * dis (dstC x1) (srcRow (dstWC x1) e) := by
  rw [val_main_v26_apply]
  have h1 : val_main_v18 (F := Ideal) x1 (ix1 e) = dis (dstC x1) (srcRow (srcC x1) e) := by
    unfold val_main_v18
    refine (gatherVec_apply (N := 50000) (E := 850000) (by decide) Facts₀.gather_S50000_S850000x1_S850000_n_0_n_n_0_1_1_wf
      (val_main_v11 (F := Ideal) x1) (val_main_v17 (F := Ideal) x1) e).trans ?_
    exact dis_read x1 _
  have h2 : val_main_v25 (F := Ideal) x1 (ix1 e) = dis (dstC x1) (srcRow (dstWC x1) e) := by
    unfold val_main_v25
    refine (gatherVec_apply (N := 50000) (E := 850000) (by decide) Facts₀.gather_S50000_S850000x1_S850000_n_0_n_n_0_1_1_wf
      (val_main_v11 (F := Ideal) x1) (val_main_v24 (F := Ideal) x1) e).trans ?_
    exact dis_read x1 _
  rw [h1, h2]
  rfl

/-- The first product, x · W1. -/
theorem xw_read (m : Fin 50000) (k : Fin 64) :
    val_main_v27 (F := Ideal) x0 x2 (ix2 m k) = ∑ q : Fin 128, (x0 (ix2 m q) : EReal) * x2 (ix2 q k) := by
  rw [val_main_v27_apply]
  refine Finset.sum_congr rfl fun q _ => ?_
  rw [show lidx_main_v27 (ix2 m k) q = ix2 m q from funext fun a => by match a with | ⟨0, _⟩ => rfl | ⟨1, _⟩ => rfl,
    show ridx_main_v27 (ix2 m k) q = ix2 q k from funext fun a => by match a with | ⟨0, _⟩ => rfl | ⟨1, _⟩ => rfl]

/-- The per-message factor, broadcast along the features (first layer's copy). -/
theorem normB1_read (e : Fin 850000) (k : Fin 64) :
    val_main_v36 (F := Ideal) x1 (ix2 e k) = val_main_v26 (F := Ideal) x1 (ix1 e) := by
  rw [val_main_v36_apply, val_main_v35_apply]
  exact congrArg _ (funext fun a => by match a with | ⟨0, _⟩ => rfl)
/-- The second layer's copy. -/
theorem normB2_read (e : Fin 850000) (k : Fin 64) :
    val_main_v54 (F := Ideal) x1 (ix2 e k) = val_main_v26 (F := Ideal) x1 (ix1 e) := by
  rw [val_main_v54_apply, val_main_v53_apply]
  exact congrArg _ (funext fun a => by match a with | ⟨0, _⟩ => rfl)

/-- The first layer before its bias. -/
theorem layer1_read (m : Fin 50000) (k : Fin 64) :
    val_main_v40 (F := Ideal) x0 x1 x2 (ix2 m k)
      = layerR (srcC x1) (dstC x1) (dstWC x1) (fun m' k' => ∑ q : Fin 128, (x0 (ix2 m' q) : EReal) * x2 (ix2 q k')) m k := by
  unfold val_main_v40
  refine (scatterAddRows_apply (N := 50000) (E := 850000) (C := 64) (φ := .f32) Facts₀.scatter_S50000x64_S850000x1_S850000x64_1_0_0_1_wf
    (val_main_v38 (F := Ideal)) (val_main_v39 (F := Ideal) x1) (val_main_v37 (F := Ideal) x0 x1 x2) m k).trans ?_
  unfold layerR into
  refine congrArg₂ (· + ·) ?_ ?_
  · rw [val_main_v38_apply]; rfl
  · refine Finset.sum_congr rfl fun e _ => ?_
    rw [val_main_v37_apply]
    show (val_main_v34 (F := Ideal) x0 x1 x2 (ix2 e k) : EReal) * val_main_v36 (F := Ideal) x1 (ix2 e k) = _
    rw [normB1_read, norm_read]
    have hg : val_main_v34 (F := Ideal) x0 x1 x2 (ix2 e k) = ∑ q : Fin 128, (x0 (ix2 (srcRow (srcC x1) e) q) : EReal) * x2 (ix2 q k) := by
      unfold val_main_v34
      refine (gatherRows_apply (N := 50000) (E := 850000) (C := 64) (by decide) Facts₀.gather_S50000x64_S850000x1_S850000x64_1_0_n_n_0_1_164_wf
        (val_main_v27 (F := Ideal) x0 x2) (val_main_v33 (F := Ideal) x1) e k).trans ?_
      exact xw_read x0 x2 _ k
    rw [hg]

/-- The hidden features: first layer, bias, maximum with the zero word. -/
theorem hidden_read (m : Fin 50000) (k : Fin 64) :
    val_main_v44 (F := Ideal) x0 x1 x2 x3 (ix2 m k)
      = max (layerR (srcC x1) (dstC x1) (dstWC x1) (fun m' k' => ∑ q : Fin 128, (x0 (ix2 m' q) : EReal) * x2 (ix2 q k')) m k + x3 (ix1 k)) zeroW := by
  have hb : val_main_v42 (F := Ideal) x3 (ix2 m k) = x3 (ix1 k) := by
    rw [val_main_v42_apply, val_main_v41_apply]
    exact congrArg x3 (funext fun a => by match a with | ⟨0, _⟩ => rfl)
  have hz : val_main_call0_v0 (F := Ideal) (ix2 m k) = zeroW := by
    rw [val_main_call0_v0_apply]; rfl
  rw [val_main_v44_apply, val_main_v43_apply]
  show max ((val_main_v40 (F := Ideal) x0 x1 x2 (ix2 m k) : EReal) + val_main_v42 (F := Ideal) x3 (ix2 m k)) (val_main_call0_v0 (F := Ideal) (ix2 m k)) = _
  rw [layer1_read, hb, hz]

/-- The second product, hidden · W2. -/
theorem hw_read (m : Fin 50000) (c : Fin 64) :
    val_main_v45 (F := Ideal) x0 x1 x2 x3 x4 (ix2 m c)
      = ∑ k : Fin 64, max (layerR (srcC x1) (dstC x1) (dstWC x1) (fun m' k' => ∑ q : Fin 128, (x0 (ix2 m' q) : EReal) * x2 (ix2 q k')) m k + x3 (ix1 k)) zeroW * x4 (ix2 k c) := by
  rw [val_main_v45_apply]
  refine Finset.sum_congr rfl fun k _ => ?_
  rw [show lidx_main_v45 (ix2 m c) k = ix2 m k from funext fun a => by match a with | ⟨0, _⟩ => rfl | ⟨1, _⟩ => rfl,
    show ridx_main_v45 (ix2 m c) k = ix2 k c from funext fun a => by match a with | ⟨0, _⟩ => rfl | ⟨1, _⟩ => rfl,
    hidden_read]

/-- THE REFERENCE'S RESULT, entry by entry: the two-layer network over the reference's spelling of a layer. -/
theorem out_read (n : Fin 50000) (c : Fin 64) :
    val_main_v61 (F := Ideal) x0 x1 x2 x3 x4 x5 (ix2 n c)
      = gcn (layerR (srcC x1) (dstC x1) (dstWC x1)) (fun m q => x0 (ix2 m q)) (fun q k => x2 (ix2 q k)) (fun k => x3 (ix1 k))
          (fun k c' => x4 (ix2 k c')) (fun c' => x5 (ix1 c')) n c := by
  rw [val_main_v61_apply]
  show (val_main_v58 (F := Ideal) x0 x1 x2 x3 x4 (ix2 n c) : EReal) + val_main_v60 (F := Ideal) x5 (ix2 n c) = _
  unfold gcn
  refine congrArg₂ (· + ·) ?_ ?_
  · unfold val_main_v58
    refine (scatterAddRows_apply (N := 50000) (E := 850000) (C := 64) (φ := .f32) Facts₀.scatter_S50000x64_S850000x1_S850000x64_1_0_0_1_wf
      (val_main_v56 (F := Ideal)) (val_main_v57 (F := Ideal) x1) (val_main_v55 (F := Ideal) x0 x1 x2 x3 x4) n c).trans ?_
    refine congrArg₂ (· + ·) ?_ (Finset.sum_congr rfl fun e _ => ?_)
    · rw [val_main_v56_apply]; rfl
    · skip
      rw [val_main_v55_apply]
      show (val_main_v52 (F := Ideal) x0 x1 x2 x3 x4 (ix2 e c) : EReal) * val_main_v54 (F := Ideal) x1 (ix2 e c) = _
      rw [normB2_read, norm_read]
      have hg : val_main_v52 (F := Ideal) x0 x1 x2 x3 x4 (ix2 e c)
          = ∑ k : Fin 64, max (layerR (srcC x1) (dstC x1) (dstWC x1) (fun m' k' => ∑ q : Fin 128, (x0 (ix2 m' q) : EReal) * x2 (ix2 q k')) (srcRow (srcC x1) e) k + x3 (ix1 k)) zeroW * x4 (ix2 k c) := by
        unfold val_main_v52
        refine (gatherRows_apply (N := 50000) (E := 850000) (C := 64) (by decide) Facts₀.gather_S50000x64_S850000x1_S850000x64_1_0_n_n_0_1_164_wf
          (val_main_v45 (F := Ideal) x0 x1 x2 x3 x4) (val_main_v51 (F := Ideal) x1) e c).trans ?_
        exact hw_read x0 x1 x2 x3 x4 _ c
      rw [hg]
      all_goals rfl
  · rw [val_main_v60_apply, val_main_v59_apply]
    exact congrArg _ (funext fun a => by match a with | ⟨0, _⟩ => rfl)

/-- The wrapped copy of the target column holds the same number wherever that number is non-negative: the compare
    against zero is false there, so the select keeps the number. -/
theorem wrap_read (e : Fin 850000) (h : 0 ≤ rowInt (dstC x1) e) : rowInt (dstWC x1) e = rowInt (dstC x1) e := by
  have h9 : val_main_v9 (F := Ideal) x1 (ix2 e (0 : Fin 1)) = val_main_v6 (F := Ideal) x1 (ix1 e) := by
    rw [val_main_v9_apply]; exact congrArg _ (funext fun a => by match a with | ⟨0, _⟩ => rfl)
  have h24 : val_main_v24 (F := Ideal) x1 (ix2 e (0 : Fin 1)) = val_main_v23 (F := Ideal) x1 (ix1 e) := by
    rw [val_main_v24_apply]; exact congrArg _ (funext fun a => by match a with | ⟨0, _⟩ => rfl)
  have h' : 0 ≤ (val_main_v6 (F := Ideal) x1 (ix1 e)).toInt := by rw [← h9]; exact h
  show (val_main_v24 (F := Ideal) x1 (ix2 e (0 : Fin 1))).toInt = (val_main_v9 (F := Ideal) x1 (ix2 e (0 : Fin 1))).toInt
  rw [h24, h9, val_main_v23_apply, val_main_v20_apply, val_main_v19_apply, val_main_c_2_apply]
  have hs : IntOp.cmpi .slt (val_main_v6 (F := Ideal) x1 (ix1 e)) 0#32 = 0#1 := by
    unfold IntOp.cmpi
    have hf : (val_main_v6 (F := Ideal) x1 (ix1 e)).slt 0#32 = false := by
      simp only [BitVec.slt, BitVec.toInt_zero, decide_eq_false_iff_not, not_lt]; exact h'
    show BitVec.ofBool ((val_main_v6 (F := Ideal) x1 (ix1 e)).slt 0#32) = 0#1
    rw [hf]; rfl
  rw [hs, select_zero]

end Cert.ReferenceIdeal.RefValue

end
-- ==== Proof.lean ====
/-
  A two-layer graph convolution with symmetric normalisation over 50000 nodes and 850000 messages (800000 edges and
  the self-loops): the kernel program against the reference, as extended reals.

  Both programs count the messages arriving at each node (deg), take dis = deg^(-1/2), and twice pass features
  through a weight matrix, along the messages, and through a bias, with a maximum against zero in between. The
  reference multiplies every message by dis(source) · dis(target) before the scatter-add. The kernel program's three
  launches instead scale the projected features by dis at the source before the gather, and the aggregated sum by dis at
  the target after the scatter-add. The two agree entry by entry: where no message arrives both sums are empty, and
  where one does the target's dis is a finite non-negative real, which distributes over the sum
  (Proof/GcnLaw.lean `layer_eq`). Narrowing to bf16 and widening back are the identity on extended reals, and a block
  product into the zero accumulator is the host's product.

  The three frames: the two kernel programs' are the generated frame certificates; the reference's is its generated run
  with the result dropped. The idealisation rewrote nothing, so `preserves` is trivial. For `algebraic` the kernel
  program's run names its result (Proof/KRun.lean), the boundary contents read back give it as one term of the
  arguments (Proof/KChain.lean), and both results read at coordinates are the one two-layer network over the two
  spellings of a layer (Proof/KHostRead.lean and Proof/KNetwork.lean, Proof/RValue.lean).
-/
import proofs.«140970_j68298569941218_2_alg».proof.Defs
import proofs.«140970_j68298569941218_2_alg».proof.Proof.Gen.Kernel
import proofs.«140970_j68298569941218_2_alg».proof.Proof.Gen.Kernel.Skeleton
import proofs.«140970_j68298569941218_2_alg».proof.Proof.Gen.Kernel.Launch
import proofs.«140970_j68298569941218_2_alg».proof.Proof.Gen.Kernel.Points
import proofs.«140970_j68298569941218_2_alg».proof.Proof.Gen.Kernel.Frame
import proofs.«140970_j68298569941218_2_alg».proof.Proof.Gen.KernelIdeal
import proofs.«140970_j68298569941218_2_alg».proof.Proof.Gen.KernelIdeal.Skeleton
import proofs.«140970_j68298569941218_2_alg».proof.Proof.Gen.KernelIdeal.Launch
import proofs.«140970_j68298569941218_2_alg».proof.Proof.Gen.KernelIdeal.Points
import proofs.«140970_j68298569941218_2_alg».proof.Proof.Gen.KernelIdeal.Frame
import proofs.«140970_j68298569941218_2_alg».proof.Proof.Gen.ReferenceIdeal
import proofs.«140970_j68298569941218_2_alg».proof.Proof.Gen.ReferenceIdeal.Run
import proofs.«140970_j68298569941218_2_alg».proof.Proof.Gen.ReferenceIdeal.Read
import proofs.«140970_j68298569941218_2_alg».proof.Proof.Gen.Pre_finite_inputs
import proofs.«140970_j68298569941218_2_alg».proof.Proof.KRun
import proofs.«140970_j68298569941218_2_alg».proof.Proof.KChain
import proofs.«140970_j68298569941218_2_alg».proof.Proof.KHostRead
import proofs.«140970_j68298569941218_2_alg».proof.Proof.KNetwork
import proofs.«140970_j68298569941218_2_alg».proof.Proof.RValue
import proofs.«140970_j68298569941218_2_alg».proof.Proof.GcnLaw
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The kernel program's result and the reference's are one function of the argument arrays: both are the two-layer
    network, over the two spellings of a layer, on the same columns of message sources and targets. -/
theorem result_eq (x : FVec Ideal Cert.KernelIdeal.S50000x128 .f32) (ei : IVec Cert.KernelIdeal.S2x800000 32)
    (W1 : FVec Ideal Cert.KernelIdeal.S128x64 .f32) (b1 : FVec Ideal Cert.KernelIdeal.S64 .f32)
    (W2 : FVec Ideal Cert.KernelIdeal.S64x64 .f32) (b2 : FVec Ideal Cert.KernelIdeal.S64 .f32) :
    Cert.KernelIdeal.Layers.outK x ei W1 b1 W2 b2 = Cert.ReferenceIdeal.Read.val_main_v61 (F := Ideal) x ei W1 b1 W2 b2 := by
  funext i
  obtain ⟨n, c, rfl⟩ : ∃ (n : Fin 50000) (c : Fin 64), i = ix2 n c := ⟨i 0, i 1, eq_ix2 i⟩
  rw [Cert.KernelIdeal.Layers.outK_apply]
  refine Eq.trans ?_ (Cert.ReferenceIdeal.RefValue.out_read x ei W1 b1 W2 b2 n c).symm
  have hs : Cert.KernelIdeal.Layers.srcK ei = Cert.ReferenceIdeal.RefValue.srcC ei := rfl
  have hd : Cert.KernelIdeal.Layers.dstK ei = Cert.ReferenceIdeal.RefValue.dstC ei := rfl
  rw [hs, hd, Cert.Gcn.gcn_eq _ _ (Cert.ReferenceIdeal.RefValue.dstWC ei) (Cert.ReferenceIdeal.RefValue.wrap_read ei)]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the arguments both idealised programs run, and end with the same result array. -/
theorem algebraic : Cert.algebraic_KernelIdeal_ReferenceIdeal := by
  intro m ρ m' ρ' _ hagree
  refine ⟨fun c => Cert.KernelIdeal.Layers.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Layers.W6_out m ρ c), (h c).2⟩)
      (Cert.KernelIdeal.Layers.run_out (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v61_eq, (hagree c).1, (hagree c).2.1, (hagree c).2.2.1,
      (hagree c).2.2.2.1, (hagree c).2.2.2.2.1, (hagree c).2.2.2.2.2]
    exact (result_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
